-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_1)) (v3 : (c : Dev Cert.KernelIdeal.nD) → Buf (Elt Ideal) ((c.tc : Thread Cert.KernelIdeal.nD Cert.KernelIdeal.τ).loc Cert.KernelIdeal.main_v2)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S2048x256 : Shape := ⟨2, ![2048, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  reducesTo_S_S_d : S_.ReducesTo [] S_

variable [Facts]

def fn_part1 {F : FTy → Type} [FloatOps F] (main_arg4 : FVec F S_ .f32) (main_v12 : IVec S_ 1) (main_v15 : IVec S_ 1) : IVec S_ 1 :=
  let main_v16 : IVec S_ 1 := andi main_v12 main_v15
  let main_v17 : FVec F S_ .f32 := Host.absf main_arg4
  let main_cst_6 : FVec F S_ .f32 := constant S_ .f32 0x7F800000#32
  let main_v18 : IVec S_ 1 := cmpf .olt main_v17 main_cst_6
  let main_c_7 : IVec S_ 1 := constantI S_ 1 1#1
  let main_v19 : IVec S_ 1 := (fun x v => Host.reduce IntOp.andi x v reducesTo_S_S_d h_S_) main_v18 main_c_7
  let main_v20 : IVec S_ 1 := andi main_v16 main_v19
  main_v20

def fn {F : FTy → Type} [FloatOps F] (main_arg0 : FVec F S32768x256 .f32) (main_arg1 : FVec F S2048x256 .f32) (main_arg2 : FVec F S_ .f32) (main_arg3 : FVec F S_ .f32) (main_arg4 : FVec F S_ .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_v12 main_v15
-- ==== Kernel.lean ====
abbrev S32768x256 : Shape := ⟨2, ![32768, 256]⟩
abbrev S2048x256 : Shape := ⟨2, ![2048, 256]⟩
abbrev S_ : Shape := ⟨0, ![]⟩
abbrev S1x1 : Shape := ⟨2, ![1, 1]⟩
abbrev S512x256 : Shape := ⟨2, ![512, 256]⟩
abbrev S1x2048 : Shape := ⟨2, ![1, 2048]⟩
abbrev S512 : Shape := ⟨1, ![512]⟩
abbrev S512x1 : Shape := ⟨2, ![512, 1]⟩
abbrev S2048 : Shape := ⟨1, ![2048]⟩
abbrev S256x2048 : Shape := ⟨2, ![256, 2048]⟩
abbrev S512x2048 : Shape := ⟨2, ![512, 2048]⟩
abbrev S1 : Shape := ⟨1, ![1]⟩
abbrev S32768x2048 : Shape := ⟨2, ![32768, 2048]⟩

abbrev nBuf : Space → Nat
  | .hbm => 20
  | .vmem => 14
  | .smem => 0
  | _ => 0

abbrev bufTy : (tb : Table) → Fin (tcTables nBuf tb) → BufTy
  | .hbm, ⟨0, _⟩ => ⟨S32768x256, .f32⟩
  | .hbm, ⟨1, _⟩ => ⟨S2048x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32768x256, .f32⟩
  | .hbm, ⟨19, _⟩ => ⟨S32768x2048, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1x2048, .f32⟩
  | .local _ .vmem, ⟨7, _⟩ => ⟨S512x256, .f32⟩
  | .local _ .vmem, ⟨8, _⟩ => ⟨S512x256, .f32⟩
  | .local _ .vmem, ⟨9, _⟩ => ⟨S2048x256, .f32⟩
  | .local _ .vmem, ⟨10, _⟩ => ⟨S512x256, .f32⟩
  | .local _ .vmem, ⟨11, _⟩ => ⟨S512x256, .f32⟩
  | .local _ .vmem, ⟨12, _⟩ => ⟨S512x2048, .f32⟩
  | .local _ .vmem, ⟨13, _⟩ => ⟨S512x2048, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v40 : BitVec 1 := Scalar.cmpi .eq arg0 c63_i32
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  reduces_S512x256_S512 : S512x256.Reduces [1] S512
  shapeCasts_S512_S512x1 : S512.ShapeCasts S512x1
  reduces_S2048x256_S2048 : S2048x256.Reduces [1] S2048
  transposes_S2048x256_p1_0_S256x2048 : S2048x256.Transposes [1, 0] S256x2048
  shapeCasts_S2048_S1x2048 : S2048.ShapeCasts S1x2048
  broadcasts_S512x1_S512x2048 : S512x1.Broadcasts S512x2048
  broadcasts_S1x2048_S512x2048 : S1x2048.Broadcasts S512x2048
  reduces_S512x2048_S512 : S512x2048.Reduces [1] S512
  reduces_S512x1_S1 : S512x1.Reduces [0] S1
  shapeCasts_S1_S1x1 : S1.ShapeCasts S1x1
  reduces_S512x2048_S2048 : S512x2048.Reduces [0] S2048
  reduces_S1x2048_S1 : S1x2048.Reduces [1] S1
  shapeCasts_S1x1_S_ : S1x1.ShapeCasts S_
  broadcasts_S512x1_S512x256 : S512x1.Broadcasts S512x256
  inb_S512x2048_S512x2048_0_0 : ∀ a, (![0, 0] : Fin 2 → Nat) a + S512x2048.size a ≤ S512x2048.size a
  h_S512x2048 : 0 < S512x2048.numel
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S32768x256.size a
  hwx0_0 : ∀ i : grid0.Coords, EltTy.bits .f32 = 32 ∨ (Rect.block (s := S32768x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S32768x256.size a
  hwx1_0 : ∀ i : grid1.Coords, EltTy.bits .f32 = 32 ∨ (Rect.block (s := S32768x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .f32 = 32 ∨ (Rect.block (s := S2048x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S32768x256.size a
  hwx1_2 : ∀ i : grid1.Coords, EltTy.bits .f32 = 32 ∨ (Rect.block (s := S32768x256) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S32768x2048.size a
  hwx1_3 : ∀ i : grid1.Coords, EltTy.bits .f32 = 32 ∨ (Rect.block (s := S32768x2048) S512x2048.size (cc1_transform_3 i) (hinb1_3 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S512x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32768x256 : Shape := ⟨2, ![32768, 256]⟩
abbrev S2048x256 : Shape := ⟨2, ![2048, 256]⟩
abbrev S_ : Shape := ⟨0, ![]⟩
abbrev S32768 : Shape := ⟨1, ![32768]⟩
abbrev S32768x1 : Shape := ⟨2, ![32768, 1]⟩
abbrev S2048 : Shape := ⟨1, ![2048]⟩
abbrev S1x2048 : Shape := ⟨2, ![1, 2048]⟩
abbrev S32768x2048 : Shape := ⟨2, ![32768, 2048]⟩
abbrev S256x2048 : Shape := ⟨2, ![256, 2048]⟩

abbrev nBuf : Space → Nat
  | .hbm => 59
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S2048x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32768x256, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S2048x256, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S256x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S32768x256, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x256, .f32⟩
  | .hbm, ⟨56, _⟩ => ⟨S32768x256, .f32⟩
  | .hbm, ⟨57, _⟩ => ⟨S256x2048, .f32⟩
  | .hbm, ⟨58, _⟩ => ⟨S32768x2048, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_cst_11 : Ref sig .tc := ⟨.hbm, 44, rfl⟩
abbrev main_v27 : Ref sig .tc := ⟨.hbm, 45, rfl⟩
abbrev main_v28 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v29 : Ref sig .tc := ⟨.hbm, 51, rfl⟩
abbrev main_cst_12 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]

class Facts₀ : Prop where
  reducesTo_S32768x256_S32768_d1 : S32768x256.ReducesTo [1] S32768
  h_S_ : 0 < S_.numel
  bcast_S32768_S32768x1_0 : S32768.BroadcastsInDim S32768x1 (![0] : Fin 1 → Fin S32768x1.rank)
  reducesTo_S2048x256_S2048_d1 : S2048x256.ReducesTo [1] S2048
  bcast_S2048_S1x2048_1 : S2048.BroadcastsInDim S1x2048 (![1] : Fin 1 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  transposes_S2048x256_S256x2048_1_0 : S2048x256.Transposes [1, 0] S256x2048
  bcast_S_S32768x2048 : S_.BroadcastsInDim S32768x2048 (![] : Fin 0 → Fin S32768x2048.rank)
  reducesTo_S32768x2048_S32768_d1 : S32768x2048.ReducesTo [1] S32768
  reducesTo_S32768_S_d0 : S32768.ReducesTo [0] S_
  reducesTo_S32768x2048_S2048_d0 : S32768x2048.ReducesTo [0] S2048
  reducesTo_S2048_S_d0 : S2048.ReducesTo [0] S_
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  dot_S32768x256_S256x2048_S32768x2048_1_0_0_1_n_n_wf : DotDims.WF S32768x256 S256x2048 S32768x2048 [1] [0] [0] [1] [] []

variable [Facts₀]

def dot_S32768x256_S256x2048_S32768x2048_1_0_0_1_n_n : DotDims S32768x256 S256x2048 S32768x2048 where
  lhsContracting := [1]
  rhsContracting := [0]
  lhsNonContracting := [0]
  rhsNonContracting := [1]
  lhsBatch := []
  rhsBatch := []
  wf := dot_S32768x256_S256x2048_S32768x2048_1_0_0_1_n_n_wf

class Facts : Prop extends Facts₀ where

variable [Facts]
-- ==== Proof.K.R0Base.lean ====
/-
  Region 0 (the pairwise-distance kernel with its two running accumulators), the parts its three control
  cases share: the blocks the input windows hold at a grid point, the two branch conditions of the body in
  closed form over the 64 grid points (the first holds at point 0 only, the second at point 63 only), where the
  two one-element output windows are idle, the staging and scratch memrefs by name, and the region invariant of
  the launch with the two scratch buffers as owned memrefs.
-/
import proofs.«145222_j55370718380495_1_alg».proof.Proof.Gen.Kernel.Launch
import proofs.«145222_j55370718380495_1_alg».proof.Proof.Gen.Kernel.Skeleton
import proofs.«145222_j55370718380495_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R0
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end R0

/-! ## The body's branch conditions -/

/-- The first branch (the accumulators are reset): the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)
/-- The second branch (the two means are written out): the grid coordinate is 63. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the two outputs are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

abbrev VO0_2 : View sig .tc .vmem S1x1 .f32 := (Memref.whole cc0_stg2_0 : Memref sig .tc .vmem S1x1 .f32).view
abbrev VO0_3 : View sig .tc .vmem S1x1 .f32 := (Memref.whole cc0_stg3_0 : Memref sig .tc .vmem S1x1 .f32).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1x1 .f32 := Memref.whole cc0_scratch0
abbrev scM0_1 : Memref sig .tc .vmem S1x2048 .f32 := Memref.whole cc0_scratch1
abbrev VS0_0 : View sig .tc .vmem S1x1 .f32 := scM0_0.view
abbrev VS0_1 : View sig .tc .vmem S1x2048 .f32 := scM0_1.view

/-- The scoped buffers of the core that are neither a staging buffer of this region nor one of its two accumulators
    (the other region's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The launch's region invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped (F := F) c) ∗ (∃ r, prngReg c r)) := by
  unfold Pipeline.ΦA otherScoped; rw [scopedRest0_eq]; simp only [scM0_0, scM0_1, owns_whole]; try rfl

end Cert.Kernel.Fr

end
-- ==== Proof.K.R0RunA.lean ====
/-
  Region 0, the body's run in control case A (the first grid point: the accumulators are reset, nothing is written out): on whole staging memrefs the body runs to its continuation, and what its
  stores leave in each accumulator (and, at the last point, in each output) is found as a list of pieces.
-/
import proofs.«145222_j55370718380495_1_alg».proof.Proof.K.R0Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case A: the first branch taken, the second not. The inputs' memrefs at their contents, the two idle outputs handed
    back untouched, the accumulators at anything; they end with the pieces `LS0`, `LS1` written. -/
noncomputable def kernelRun0_A (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i)
    (x0 : Vec F S512x256 .f32) (x1 : Vec F S2048x256 .f32) :
    Σ' (LS0 : List (View.Piece (Elt F) S1x1 .f32)), { LS1 : List (View.Piece (Elt F) S1x2048 .f32) //
      ∀ (xi2 xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, fun xi2 xi3 E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Fr

end
-- ==== Proof.K.R0RunB.lean ====
/-
  Region 0, the body's run in control case B (a middle grid point: the accumulators are updated, nothing is written out): on whole staging memrefs the body runs to its continuation, and what its
  stores leave in each accumulator (and, at the last point, in each output) is found as a list of pieces.
-/
import proofs.«145222_j55370718380495_1_alg».proof.Proof.K.R0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case B: neither branch taken. The inputs' memrefs at their contents, the two idle outputs handed back untouched, the
    accumulators at what the point before left (`xs0`, `xs1`); they end with the pieces `LS0`, `LS1` written. -/
noncomputable def kernelRun0_B (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i)
    (x0 : Vec F S512x256 .f32) (x1 : Vec F S2048x256 .f32) (xs0 : Vec F S1x1 .f32) (xs1 : Vec F S1x2048 .f32) :
    Σ' (LS0 : List (View.Piece (Elt F) S1x1 .f32)), { LS1 : List (View.Piece (Elt F) S1x2048 .f32) //
      ∀ (xi2 xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, fun xi2 xi3 E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Fr

end
-- ==== Proof.K.R0RunC.lean ====
/-
  Region 0, the body's run in control case C (the last grid point: the accumulators are updated and the two means written out): on whole staging memrefs the body runs to its continuation, and what its
  stores leave in each accumulator (and, at the last point, in each output) is found as a list of pieces.
-/
import proofs.«145222_j55370718380495_1_alg».proof.Proof.K.R0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case C: the first branch not taken, the second taken. The inputs' memrefs at their contents, the outputs at anything,
    the accumulators at what the point before left; the outputs end with the pieces `L2`, `L3` written, the accumulators
    with `LS0`, `LS1`. -/
noncomputable def kernelRun0_C (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i)
    (x0 : Vec F S512x256 .f32) (x1 : Vec F S2048x256 .f32) (xs0 : Vec F S1x1 .f32) (xs1 : Vec F S1x2048 .f32) :
    Σ' (L2 : List (View.Piece (Elt F) S1x1 .f32)) (L3 : List (View.Piece (Elt F) S1x1 .f32)) (LS0 : List (View.Piece (Elt F) S1x1 .f32)), { LS1 : List (View.Piece (Elt F) S1x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, ?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Fr

end
-- ==== Proof.K.R0Frame.lean ====
/-
  Region 0: what its two outputs and its two accumulators hold after each grid point, the region invariant that
  carries the accumulators from point to point, the proof data of the pipeline and the body obligation.

  The 64 grid points fall into three control cases: the first point (the accumulators are reset, then updated), the
  points 1 … 62 (updated), the last point (updated, then the two means stored into the outputs). The two outputs
  are idle and not written back before the last point.
-/
import proofs.«145222_j55370718380495_1_alg».proof.Proof.K.R0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case's pieces leave (read back over anything: the pieces cover the buffer) -/

theorem scover0_A_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i) (x0 : Vec F S512x256 .f32) (x1 : Vec F S2048x256 .f32) (y : S1x1.Idx) : ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S1x1.size (by sl_kernel_rfl) y

theorem scover0_A_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i) (x0 : Vec F S512x256 .f32) (x1 : Vec F S2048x256 .f32) (y : S1x2048.Idx) : ∃ pc ∈ (kernelRun0_A c i arg1 harg1 arg2 harg2 arg3 harg3 arg4 harg4 arg5 harg5 arg6 harg6 hc0 hc1 x0 x1).2.1, y ∈ pc.1.set :=
  View.cover_of_tiledL (kernelRun0_A c i arg1 harg1 arg2 harg2 arg3 harg3 arg4 harg4 arg5 harg5 arg6 harg6 hc0 hc1 x0 x1).2.1 S1x2048.size (by sl_kernel_rfl) y

def sout0_A_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i) (x0 : Vec F S512x256 .f32) (x1 : Vec F S2048x256 .f32) : Vec F S1x1 .f32 :=
  VS0_0.read (Elt F) (VS0_0.writes (Elt F) VS0_0.junk (kernelRun0_A c i arg1 harg1 arg2 harg2 arg3 harg3 arg4 harg4 arg5 harg5 arg6 harg6 hc0 hc1 x0 x1).1)

def sout0_A_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i) (x0 : Vec F S512x256 .f32) (x1 : Vec F S2048x256 .f32) : Vec F S1x2048 .f32 :=
  VS0_1.read (Elt F) (VS0_1.writes (Elt F) VS0_1.junk (kernelRun0_A c i arg1 harg1 arg2 harg2 arg3 harg3 arg4 harg4 arg5 harg5 arg6 harg6 hc0 hc1 x0 x1).2.1)

theorem scover0_B_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i) (x0 : Vec F S512x256 .f32) (x1 : Vec F S2048x256 .f32) (xs0 : Vec F S1x1 .f32) (xs1 : Vec F S1x2048 .f32) (y : S1x1.Idx) : ∃ pc ∈ (kernelRun0_B c i arg1 harg1 arg2 harg2 arg3 harg3 arg4 harg4 arg5 harg5 arg6 harg6 hc0 hc1 x0 x1 xs0 xs1).1, y ∈ pc.1.set :=
  View.cover_of_tiledL (kernelRun0_B c i arg1 harg1 arg2 harg2 arg3 harg3 arg4 harg4 arg5 harg5 arg6 harg6 hc0 hc1 x0 x1 xs0 xs1).1 S1x1.size (by sl_kernel_rfl) y

theorem scover0_B_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i) (x0 : Vec F S512x256 .f32) (x1 : Vec F S2048x256 .f32) (xs0 : Vec F S1x1 .f32) (xs1 : Vec F S1x2048 .f32) (y : S1x2048.Idx) : ∃ pc ∈ (kernelRun0_B c i arg1 harg1 arg2 harg2 arg3 harg3 arg4 harg4 arg5 harg5 arg6 harg6 hc0 hc1 x0 x1 xs0 xs1).2.1, y ∈ pc.1.set :=
  View.cover_of_tiledL (kernelRun0_B c i arg1 harg1 arg2 harg2 arg3 harg3 arg4 harg4 arg5 harg5 arg6 harg6 hc0 hc1 x0 x1 xs0 xs1).2.1 S1x2048.size (by sl_kernel_rfl) y

def sout0_B_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i) (x0 : Vec F S512x256 .f32) (x1 : Vec F S2048x256 .f32) (xs0 : Vec F S1x1 .f32) (xs1 : Vec F S1x2048 .f32) : Vec F S1x1 .f32 :=
  VS0_0.read (Elt F) (VS0_0.writes (Elt F) VS0_0.junk (kernelRun0_B c i arg1 harg1 arg2 harg2 arg3 harg3 arg4 harg4 arg5 harg5 arg6 harg6 hc0 hc1 x0 x1 xs0 xs1).1)

def sout0_B_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i) (x0 : Vec F S512x256 .f32) (x1 : Vec F S2048x256 .f32) (xs0 : Vec F S1x1 .f32) (xs1 : Vec F S1x2048 .f32) : Vec F S1x2048 .f32 :=
  VS0_1.read (Elt F) (VS0_1.writes (Elt F) VS0_1.junk (kernelRun0_B c i arg1 harg1 arg2 harg2 arg3 harg3 arg4 harg4 arg5 harg5 arg6 harg6 hc0 hc1 x0 x1 xs0 xs1).2.1)

theorem cover0_C_2 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) (y : S1x1.Idx) : ∃ pc ∈ (kernelRun0_C c i arg1 harg1 arg2 harg2 arg3 harg3 arg4 harg4 arg5 harg5 arg6 harg6 hc0 hc1 x0 x1 xs0 xs1).1, y ∈ pc.1.set :=
  View.cover_of_tiledL (kernelRun0_C c i arg1 harg1 arg2 harg2 arg3 harg3 arg4 harg4 arg5 harg5 arg6 harg6 hc0 hc1 x0 x1 xs0 xs1).1 S1x1.size (by sl_kernel_rfl) y

theorem cover0_C_3 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) (y : S1x1.Idx) : ∃ pc ∈ (kernelRun0_C c i arg1 harg1 arg2 harg2 arg3 harg3 arg4 harg4 arg5 harg5 arg6 harg6 hc0 hc1 x0 x1 xs0 xs1).2.1, y ∈ pc.1.set :=
  View.cover_of_tiledL (kernelRun0_C c i arg1 harg1 arg2 harg2 arg3 harg3 arg4 harg4 arg5 harg5 arg6 harg6 hc0 hc1 x0 x1 xs0 xs1).2.1 S1x1.size (by sl_kernel_rfl) y

theorem scover0_C_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) (y : S1x1.Idx) : ∃ pc ∈ (kernelRun0_C c i arg1 harg1 arg2 harg2 arg3 harg3 arg4 harg4 arg5 harg5 arg6 harg6 hc0 hc1 x0 x1 xs0 xs1).2.2.1, y ∈ pc.1.set :=
  View.cover_of_tiledL (kernelRun0_C c i arg1 harg1 arg2 harg2 arg3 harg3 arg4 harg4 arg5 harg5 arg6 harg6 hc0 hc1 x0 x1 xs0 xs1).2.2.1 S1x1.size (by sl_kernel_rfl) y

theorem scover0_C_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) (y : S1x2048.Idx) : ∃ pc ∈ (kernelRun0_C c i arg1 harg1 arg2 harg2 arg3 harg3 arg4 harg4 arg5 harg5 arg6 harg6 hc0 hc1 x0 x1 xs0 xs1).2.2.2.1, y ∈ pc.1.set :=
  View.cover_of_tiledL (kernelRun0_C c i arg1 harg1 arg2 harg2 arg3 harg3 arg4 harg4 arg5 harg5 arg6 harg6 hc0 hc1 x0 x1 xs0 xs1).2.2.2.1 S1x2048.size (by sl_kernel_rfl) y

def out0_C_2 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) : Vec F S1x1 .f32 :=
  VO0_2.read (Elt F) (VO0_2.writes (Elt F) VO0_2.junk (kernelRun0_C c i arg1 harg1 arg2 harg2 arg3 harg3 arg4 harg4 arg5 harg5 arg6 harg6 hc0 hc1 x0 x1 xs0 xs1).1)

def out0_C_3 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) : Vec F S1x1 .f32 :=
  VO0_3.read (Elt F) (VO0_3.writes (Elt F) VO0_3.junk (kernelRun0_C c i arg1 harg1 arg2 harg2 arg3 harg3 arg4 harg4 arg5 harg5 arg6 harg6 hc0 hc1 x0 x1 xs0 xs1).2.1)

def sout0_C_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) : Vec F S1x1 .f32 :=
  VS0_0.read (Elt F) (VS0_0.writes (Elt F) VS0_0.junk (kernelRun0_C c i arg1 harg1 arg2 harg2 arg3 harg3 arg4 harg4 arg5 harg5 arg6 harg6 hc0 hc1 x0 x1 xs0 xs1).2.2.1)

def sout0_C_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) : Vec F S1x2048 .f32 :=
  VS0_1.read (Elt F) (VS0_1.writes (Elt F) VS0_1.junk (kernelRun0_C c i arg1 harg1 arg2 harg2 arg3 harg3 arg4 harg4 arg5 harg5 arg6 harg6 hc0 hc1 x0 x1 xs0 xs1).2.2.2.1)

/-- A placeholder for an output's staging buffer at a point where the window is idle and not written back: nothing reads it. -/
def idleOut : Vec F S1x1 .f32 := VO0_2.read (Elt F) VO0_2.junk

/-! ## The conditions at a point, from its position -/

theorem cond0_0_of (t : Fin cfg0.N) (h : t.val = 0) : cond0_0 (grid0.coords t) := (hcond0_0 t).mpr (by rw [h])
theorem ncond0_0_of (t : Fin cfg0.N) (h : t.val ≠ 0) : ¬cond0_0 (grid0.coords t) := fun hc => by
  have h1 := (hcond0_0 t).mp hc
  have hN : t.val < 64 := lt_of_lt_of_eq t.isLt (show cfg0.N = 64 from N_0)
  omega
theorem cond0_1_of (t : Fin cfg0.N) (h : t.val % 64 = 63) : cond0_1 (grid0.coords t) := (hcond0_1 t).mpr h
theorem ncond0_1_of (t : Fin cfg0.N) (h : ¬t.val % 64 = 63) : ¬cond0_1 (grid0.coords t) := fun hc => h ((hcond0_1 t).mp hc)

section R0
variable (V : (c : Dev nD) → (b : Ref sig .tc) → Buf (Elt F) ((c : Thread nD τ).loc b))

/-! ## One point's step, per case, at the point's memrefs and input blocks -/

/-- The accumulators after the first point. -/
def stepA (c : Dev nD) (t : Fin cfg0.N) (hc0 : cond0_0 (grid0.coords t)) (hc1 : ¬cond0_1 (grid0.coords t)) : Vec F S1x1 .f32 × Vec F S1x2048 .f32 :=
  (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t))
/-- The accumulators after a middle point, from what the point before left. -/
def stepB (c : Dev nD) (t : Fin cfg0.N) (hc0 : ¬cond0_0 (grid0.coords t)) (hc1 : ¬cond0_1 (grid0.coords t)) (xs0 : Vec F S1x1 .f32) (xs1 : Vec F S1x2048 .f32) : Vec F S1x1 .f32 × Vec F S1x2048 .f32 :=
  (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1,
   sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1)
/-- The outputs and the accumulators after the last point, from what the point before left. -/
def stepC (c : Dev nD) (t : Fin cfg0.N) (hc0 : ¬cond0_0 (grid0.coords t)) (hc1 : cond0_1 (grid0.coords t)) (xs0 : Vec F S1x1 .f32) (xs1 : Vec F S1x2048 .f32) : Vec F S1x1 .f32 × Vec F S1x1 .f32 × Vec F S1x1 .f32 × Vec F S1x2048 .f32 :=
  (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1,
   out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1,
   sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1,
   sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1)

/-! ## What the outputs and the accumulators hold after each point -/

/-- After the body at position `n`: the two outputs' staging buffers, then the two accumulators. -/
def outsAt0 (c : Dev nD) : (n : ℕ) → n < cfg0.N → Vec F S1x1 .f32 × Vec F S1x1 .f32 × Vec F S1x1 .f32 × Vec F S1x2048 .f32
  | 0, hn => (idleOut, idleOut,
      (stepA V c ⟨0, hn⟩ (cond0_0_of ⟨0, hn⟩ rfl) (ncond0_1_of ⟨0, hn⟩ (by show ¬(0 : ℕ) % 64 = 63; decide))).1,
      (stepA V c ⟨0, hn⟩ (cond0_0_of ⟨0, hn⟩ rfl) (ncond0_1_of ⟨0, hn⟩ (by show ¬(0 : ℕ) % 64 = 63; decide))).2)
  | n + 1, hn =>
    if h1 : (n + 1) % 64 = 63 then
      stepC V c ⟨n + 1, hn⟩ (ncond0_0_of ⟨n + 1, hn⟩ (Nat.succ_ne_zero n)) (cond0_1_of ⟨n + 1, hn⟩ h1)
        (outsAt0 c n (Nat.lt_of_succ_lt hn)).2.2.1 (outsAt0 c n (Nat.lt_of_succ_lt hn)).2.2.2
    else
      (idleOut, idleOut,
        (stepB V c ⟨n + 1, hn⟩ (ncond0_0_of ⟨n + 1, hn⟩ (Nat.succ_ne_zero n)) (ncond0_1_of ⟨n + 1, hn⟩ h1)
          (outsAt0 c n (Nat.lt_of_succ_lt hn)).2.2.1 (outsAt0 c n (Nat.lt_of_succ_lt hn)).2.2.2).1,
        (stepB V c ⟨n + 1, hn⟩ (ncond0_0_of ⟨n + 1, hn⟩ (Nat.succ_ne_zero n)) (ncond0_1_of ⟨n + 1, hn⟩ h1)
          (outsAt0 c n (Nat.lt_of_succ_lt hn)).2.2.1 (outsAt0 c n (Nat.lt_of_succ_lt hn)).2.2.2).2)

/-- At the first point. -/
theorem outsAt0_A (c : Dev nD) (t : Fin cfg0.N) (h0 : t.val = 0) (hc0 : cond0_0 (grid0.coords t)) (hc1 : ¬cond0_1 (grid0.coords t)) :
    outsAt0 V c t.val t.isLt = (idleOut, idleOut, (stepA V c t hc0 hc1).1, (stepA V c t hc0 hc1).2) := by
  obtain ⟨n, hn⟩ := t
  cases n with
  | zero => rfl
  | succ n => exact absurd h0 (Nat.succ_ne_zero n)

/-- At a middle point: over what the point before left. -/
theorem outsAt0_B (c : Dev nD) (t : Fin cfg0.N) (h0 : t.val ≠ 0) (h1 : ¬t.val % 64 = 63) (hc0 : ¬cond0_0 (grid0.coords t)) (hc1 : ¬cond0_1 (grid0.coords t)) :
    outsAt0 V c t.val t.isLt = (idleOut, idleOut,
      (stepB V c t hc0 hc1 (outsAt0 V c (t.val - 1) (Nat.lt_of_le_of_lt (Nat.sub_le _ _) t.isLt)).2.2.1 (outsAt0 V c (t.val - 1) (Nat.lt_of_le_of_lt (Nat.sub_le _ _) t.isLt)).2.2.2).1,
      (stepB V c t hc0 hc1 (outsAt0 V c (t.val - 1) (Nat.lt_of_le_of_lt (Nat.sub_le _ _) t.isLt)).2.2.1 (outsAt0 V c (t.val - 1) (Nat.lt_of_le_of_lt (Nat.sub_le _ _) t.isLt)).2.2.2).2) := by
  obtain ⟨n, hn⟩ := t
  cases n with
  | zero => exact absurd rfl h0
  | succ n => exact (dif_neg h1).trans rfl

/-- At the last point: over what the point before left. -/
theorem outsAt0_C (c : Dev nD) (t : Fin cfg0.N) (h0 : t.val ≠ 0) (h1 : t.val % 64 = 63) (hc0 : ¬cond0_0 (grid0.coords t)) (hc1 : cond0_1 (grid0.coords t)) :
    outsAt0 V c t.val t.isLt = stepC V c t hc0 hc1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd rfl h0
  | succ n => exact (dif_pos h1).trans rfl

/-- The region invariant before position `n`: before the first point the launch's; afterwards the accumulators at what
    the point before left in them, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ otherScoped (F := F) c) ∗ (∃ r, prngReg c r)) := by
  cases n with
  | zero => exact absurd rfl hz
  | succ n => rfl

/-! ## The pipeline's proof data -/

/-- The proof data of the region's pipeline on core `c`: the arrays as the region finds them; after the body at point
    `t` each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the position says which case the point is in; the
    invariant hands the body the accumulators at what the point before left (at anything at the first point) and takes
    them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · -- the first point
    have hc0 : cond0_0 (grid0.coords t) := cond0_0_of t h0
    have hc1 : ¬cond0_1 (grid0.coords t) := ncond0_1_of t (by omega)
    rw [Dat.leavesExact_idle (dat0 V c) 2 t (idleAt0_2 t hc1) (noFlush0_2 t hc1),
      Dat.leavesExact_idle (dat0 V c) 3 t (idleAt0_3 t hc1) (noFlush0_3 t hc1)]
    rw [outsAt0_A V c t h0 hc0 hc1]
    unfold stepA sout0_A_0 sout0_A_1; (try dsimp only)
    rw [PhiS_castSucc V c t, PhiS_zero V c _ _ h0, PhiA0_eq]
    iintro ⟨⟨⟨HS0, HS1, Hoth⟩, Hg⟩, Ho, ⟨%d0, H0⟩, ⟨%d1, H1⟩, ⟨%d2, H2⟩, ⟨%d3, H3⟩⟩
    iapply ((kernelRun0_A c (grid0.coords t) _ _ _ _ _ _ _ _ _ _ _ _ hc0 hc1 (iblk0 V c 0 t) (iblk0 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover0_A_0 c _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _)
        iexact Hoth
      iexact Hg
    isplitl [Ho]; · iexact Ho
    isplitl [H0]; · iexact H0
    isplitl [H1]; · iexact H1
    isplitl [H2]; · iexists _; iexact H2
    iexists _; iexact H3
  · have hc0 : ¬cond0_0 (grid0.coords t) := ncond0_0_of t h0
    by_cases h1 : t.val % 64 = 63
    · -- the last point
      have hc1 : cond0_1 (grid0.coords t) := cond0_1_of t h1
      rw [show (dat0 V c).leavesExact 2 t = owns (c : Thread nD τ) (ms0_2 t) fullShare ((dat0 V c).after 2 t) from by
        unfold Dat.leavesExact; rw [liveAt0_2 t hc1], after0_2]
      rw [show (dat0 V c).leavesExact 3 t = owns (c : Thread nD τ) (ms0_3 t) fullShare ((dat0 V c).after 3 t) from by
        unfold Dat.leavesExact; rw [liveAt0_3 t hc1], after0_3]
      rw [outsAt0_C V c t h0 h1 hc0 hc1]
      unfold stepC out0_C_2 out0_C_3 sout0_C_0 sout0_C_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · -- a middle point
      have hc1 : ¬cond0_1 (grid0.coords t) := ncond0_1_of t h1
      rw [Dat.leavesExact_idle (dat0 V c) 2 t (idleAt0_2 t hc1) (noFlush0_2 t hc1),
        Dat.leavesExact_idle (dat0 V c) 3 t (idleAt0_3 t hc1) (noFlush0_3 t hc1)]
      rw [outsAt0_B V c t h0 h1 hc0 hc1]
      unfold stepB sout0_B_0 sout0_B_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end R0

end Cert.Kernel.Fr

end
-- ==== Proof.K.R1Frame.lean ====
/-
  Region 1 (the kernel that normalises each row of a block of the first operand and multiplies the result with the
  transposed second operand): the blocks its two input windows hold at a grid point, what its body leaves in each of
  its two output windows' staging buffers as a closed function of those blocks, the body's triple, the proof data of
  its pipeline and the body obligation — everything at the buffer contents the region is entered from.
-/
import proofs.«145222_j55370718380495_1_alg».proof.Proof.Gen.Kernel.Launch
import proofs.«145222_j55370718380495_1_alg».proof.Proof.Gen.Kernel.Skeleton
import proofs.«145222_j55370718380495_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R1
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the entry contents' and whose body leaves the block in place: where the pipeline does not
    fetch, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x256 := Rect.unit (s := S512x256) ![0, 0] S512x256.size inb_S512x256_S512x256_0_0
abbrev r1_1 : Rect S2048x256 := Rect.unit (s := S2048x256) ![0, 0] S2048x256.size inb_S2048x256_S2048x256_0_0
abbrev r1_3 : Rect S512x2048 := Rect.unit (s := S512x2048) ![0, 0] S512x2048.size inb_S512x2048_S512x2048_0_0

/-! ## What the body leaves in each output window's buffer -/

/-- Window 2's staging buffer after the body, from the input windows' blocks: its one store, of the row-normalised
    first block. -/
def out1_2 (x0 : Vec F S512x256 .f32) : Vec F S512x256 .f32 :=
  View.canon [⟨r1_0, k1_pay1 (View.ld x0 r1_0)⟩]

/-- Window 3's staging buffer after the body: its one store, of the product of the row-normalised first block with
    the transposed second block. -/
def out1_3 (x0 : Vec F S512x256 .f32) (x1 : Vec F S2048x256 .f32) : Vec F S512x2048 .f32 :=
  View.canon [⟨r1_3, k1_pay2 (View.ld x0 r1_0) (View.ld x1 r1_1)⟩]

/-- The one store into window 2's buffer is of the whole buffer, so it covers it. -/
theorem cover1_2 (p0 : Vec F S512x256 .f32) (y : S512x256.Idx) :
    ∃ pc ∈ ([⟨r1_0, p0⟩] : List (View.Piece (Elt F) S512x256 .f32)), y ∈ pc.1.set :=
  View.cover_of_tiled [⟨r1_0, p0⟩] S512x256.size (by rfl) y
/-- The one store into window 3's buffer is of the whole buffer, so it covers it. -/
theorem cover1_3 (p0 : Vec F S512x2048 .f32) (y : S512x2048.Idx) :
    ∃ pc ∈ ([⟨r1_3, p0⟩] : List (View.Piece (Elt F) S512x2048 .f32)), y ∈ pc.1.set :=
  View.cover_of_tiled [⟨r1_3, p0⟩] S512x2048.size (by rfl) y

/-! ## The body's triple -/

set_option maxHeartbeats 1000000 in
/-- The kernel body on whole staging memrefs, the inputs' at read contents `x0`, `x1` and the outputs' at anything, runs
    to the continuation holding the inputs' as they were and each output's at `out1_W` of the inputs'. The body reads each
    output's buffer before it stores into it and uses neither value. -/
theorem sound_kernel1 (c : Dev nD) (E : Set ℕ) (i : grid1.Coords)
    (arg1 : Memref sig .tc .vmem S512x256 .f32) (harg1 : arg1.IsWhole) (arg2 : Memref sig .tc .vmem S2048x256 .f32) (harg2 : arg2.IsWhole)
    (arg3 : Memref sig .tc .vmem S512x256 .f32) (harg3 : arg3.IsWhole) (arg4 : Memref sig .tc .vmem S512x2048 .f32) (harg4 : arg4.IsWhole)
    (x0 : Vec F S512x256 .f32) (x1 : Vec F S2048x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0) ∗ owns (c : Thread nD τ) arg4 fullShare (out1_3 x0 x1)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of the region's pipeline on core `c`: the arrays as the region finds them; after the body at point
    `t` each input's buffer at its block and each output's at `out1_W` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t)
    | ⟨3, _⟩ => out1_3 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end R1

end Cert.Kernel.Fr

end
-- ==== Proof.K.Run.lean ====
/-
  The run of the two-region program: the buffer contents at every boundary between its four segments (a stretch of
  host operations, the first kernel region, a second stretch, the second kernel region) as a fold from the launch
  memory; each segment over the thread state "every unscoped buffer at the boundary's contents, the generator register
  at some state, nothing owed"; the launch over the segments; and, read off the last boundary, that every final state
  has each unscoped buffer at the fold's last contents — in particular the five argument arrays as launched, and the
  two results at what the second region's write-backs leave.
-/
import proofs.«145222_j55370718380495_1_alg».proof.Proof.K.R0Frame
import proofs.«145222_j55370718380495_1_alg».proof.Proof.K.R1Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
/-- The same read at the core's references (what the first region's proof data take). -/
abbrev V1 : (c : Dev nD) → (b : Ref sig .tc) → Buf (Elt F) ((c : Thread nD τ).loc b) := fun c b => W1 m ρ c b
/-- At the first region's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (the first region's exit contents). -/
abbrev V2 : (c : Dev nD) → (b : Ref sig .tc) → Buf (Elt F) ((c : Thread nD τ).loc b) := fun c b => W2 m ρ c b
/-- At the first region's exit each of its arrays holds what the pipeline leaves and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the second region's entry). -/
abbrev W3 : Dev nD → Valuation τ sig (Elt F) := fun c => StableHlo.after hostOps1 (W2 m ρ c)
/-- The same read at the core's references (what the second region's proof data take). -/
abbrev V3 : (c : Dev nD) → (b : Ref sig .tc) → Buf (Elt F) ((c : Thread nD τ).loc b) := fun c b => W3 m ρ c b
/-- At the second region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (the second region's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one, and a region reads it through an input window
    (the first two) or bypasses it (the other three), so the fold at an argument's buffer walks back to the launch
    memory -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_main_arg0 m ρ c
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := W1_main_arg1 m ρ c
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W2_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_main_arg2 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_main_arg3 m ρ c
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W2_main_arg4 m ρ c
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = m ((c : Thread nD τ).loc main_arg0) := W3_main_arg0 m ρ c
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = m ((c : Thread nD τ).loc main_arg1) := W3_main_arg1 m ρ c
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)

/-- The two operands of both regions, as each region finds them: the launch contents. -/
theorem V1_main_arg0 (c : Dev nD) : V1 m ρ c main_arg0 = m ((c : Thread nD τ).loc main_arg0) := W1_main_arg0 m ρ c
theorem V1_main_arg1 (c : Dev nD) : V1 m ρ c main_arg1 = m ((c : Thread nD τ).loc main_arg1) := W1_main_arg1 m ρ c
theorem V3_main_arg0 (c : Dev nD) : V3 m ρ c main_arg0 = m ((c : Thread nD τ).loc main_arg0) := W3_main_arg0 m ρ c
theorem V3_main_arg1 (c : Dev nD) : V3 m ρ c main_arg1 = m ((c : Thread nD τ).loc main_arg1) := W3_main_arg1 m ρ c

/-! ### The results, read off the boundaries -/

/-- The first region's two results at its exit: what its write-backs leave. -/
theorem W2_v3_0 (c : Dev nD) : W2 m ρ c (Proc.devRef .tc main_v3_0) = (dat0 (V1 m ρ) c).arrAt 2 cfg0.N := W2_arr m ρ c 2
theorem W2_v3_1 (c : Dev nD) : W2 m ρ c (Proc.devRef .tc main_v3_1) = (dat0 (V1 m ρ) c).arrAt 3 cfg0.N := W2_arr m ρ c 3
/-- The second region's two results at the end: what its write-backs leave. -/
theorem W4_v9_0 (c : Dev nD) : W4 m ρ c (Proc.devRef .tc main_v9_0) = (dat1 (V3 m ρ) c).arrAt 2 cfg1.N := W4_arr m ρ c 2
theorem W4_v9_1 (c : Dev nD) : W4 m ρ c (Proc.devRef .tc main_v9_1) = (dat1 (V3 m ρ) c).arrAt 3 cfg1.N := W4_arr m ρ c 3
/-- The scalar the first stretch computes is written by nothing after it. -/
theorem W4_main_v2 (c : Dev nD) : W4 m ρ c (Proc.devRef .tc main_v2) = W1 m ρ c (Proc.devRef .tc main_v2) :=
  calc W4 m ρ c (Proc.devRef .tc main_v2)
    _ = W3 m ρ c (Proc.devRef .tc main_v2) := W4_of_ne m ρ c main_v2 (by decide)
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v2) := W2_of_ne m ρ c main_v2 (by decide)
/-- The scalar the second stretch computes is not written by the second region. -/
theorem W4_main_v8 (c : Dev nD) : W4 m ρ c (Proc.devRef .tc main_v8) = W3 m ρ c (Proc.devRef .tc main_v8) :=
  W4_of_ne m ρ c main_v8 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W1`, left at `W2`. Its arrays are
    split out of the unscoped buffers and put back at the exit contents; the generator register goes into the launch's
    invariant, which the region's own invariant starts from and ends in (in between it carries the two accumulators);
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V1 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ (Pipeline.ΦA spec0 c : sProp 𝕄) := hout0 (V1 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4` (what the launch
    reads at the end). Its arrays are split out of the unscoped buffers and put back at the exit contents; the generator
    register goes into the launch's invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 4 segments in order: a host segment per stretch from its boundary's contents, a region per kernel
    call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of the program on the
    cores terminates, nothing faulting, and every final state has each unscoped buffer of each core at the last
    boundary's contents `W4`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every final state has the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_all m ρ)

end Cert.Kernel.Fr

end
-- ==== Proof.KI.R0Base.lean ====
/-
  Region 0 (the pairwise-distance kernel with its two running accumulators), the parts its three control
  cases share: the blocks the input windows hold at a grid point, the two branch conditions of the body in
  closed form over the 64 grid points (the first holds at point 0 only, the second at point 63 only), where the
  two one-element output windows are idle, the staging and scratch memrefs by name, and the region invariant of
  the launch with the two scratch buffers as owned memrefs.
-/
import proofs.«145222_j55370718380495_1_alg».proof.Proof.Gen.KernelIdeal.Launch
import proofs.«145222_j55370718380495_1_alg».proof.Proof.Gen.KernelIdeal.Skeleton
import proofs.«145222_j55370718380495_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R0
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end R0

/-! ## The body's branch conditions -/

/-- The first branch (the accumulators are reset): the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)
/-- The second branch (the two means are written out): the grid coordinate is 63. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the two outputs are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

abbrev VO0_2 : View sig .tc .vmem S1x1 .f32 := (Memref.whole cc0_stg2_0 : Memref sig .tc .vmem S1x1 .f32).view
abbrev VO0_3 : View sig .tc .vmem S1x1 .f32 := (Memref.whole cc0_stg3_0 : Memref sig .tc .vmem S1x1 .f32).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1x1 .f32 := Memref.whole cc0_scratch0
abbrev scM0_1 : Memref sig .tc .vmem S1x2048 .f32 := Memref.whole cc0_scratch1
abbrev VS0_0 : View sig .tc .vmem S1x1 .f32 := scM0_0.view
abbrev VS0_1 : View sig .tc .vmem S1x2048 .f32 := scM0_1.view

/-- The scoped buffers of the core that are neither a staging buffer of this region nor one of its two accumulators
    (the other region's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The launch's region invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped (F := F) c) ∗ (∃ r, prngReg c r)) := by
  unfold Pipeline.ΦA otherScoped; rw [scopedRest0_eq]; simp only [scM0_0, scM0_1, owns_whole]; try rfl

end Cert.KernelIdeal.Fr

end
-- ==== Proof.KI.R0RunA.lean ====
/-
  Region 0, the body's run in control case A (the first grid point: the accumulators are reset, nothing is written out): on whole staging memrefs the body runs to its continuation, and what its
  stores leave in each accumulator (and, at the last point, in each output) is found as a list of pieces.
-/
import proofs.«145222_j55370718380495_1_alg».proof.Proof.KI.R0Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case A: the first branch taken, the second not. The inputs' memrefs at their contents, the two idle outputs handed
    back untouched, the accumulators at anything; they end with the pieces `LS0`, `LS1` written. -/
noncomputable def kernelRun0_A (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i)
    (x0 : Vec F S512x256 .f32) (x1 : Vec F S2048x256 .f32) :
    Σ' (LS0 : List (View.Piece (Elt F) S1x1 .f32)), { LS1 : List (View.Piece (Elt F) S1x2048 .f32) //
      ∀ (xi2 xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, fun xi2 xi3 E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Fr

end
-- ==== Proof.KI.R0RunB.lean ====
/-
  Region 0, the body's run in control case B (a middle grid point: the accumulators are updated, nothing is written out): on whole staging memrefs the body runs to its continuation, and what its
  stores leave in each accumulator (and, at the last point, in each output) is found as a list of pieces.
-/
import proofs.«145222_j55370718380495_1_alg».proof.Proof.KI.R0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case B: neither branch taken. The inputs' memrefs at their contents, the two idle outputs handed back untouched, the
    accumulators at what the point before left (`xs0`, `xs1`); they end with the pieces `LS0`, `LS1` written. -/
noncomputable def kernelRun0_B (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i)
    (x0 : Vec F S512x256 .f32) (x1 : Vec F S2048x256 .f32) (xs0 : Vec F S1x1 .f32) (xs1 : Vec F S1x2048 .f32) :
    Σ' (LS0 : List (View.Piece (Elt F) S1x1 .f32)), { LS1 : List (View.Piece (Elt F) S1x2048 .f32) //
      ∀ (xi2 xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, fun xi2 xi3 E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Fr

end
-- ==== Proof.KI.R0RunC.lean ====
/-
  Region 0, the body's run in control case C (the last grid point: the accumulators are updated and the two means written out): on whole staging memrefs the body runs to its continuation, and what its
  stores leave in each accumulator (and, at the last point, in each output) is found as a list of pieces.
-/
import proofs.«145222_j55370718380495_1_alg».proof.Proof.KI.R0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case C: the first branch not taken, the second taken. The inputs' memrefs at their contents, the outputs at anything,
    the accumulators at what the point before left; the outputs end with the pieces `L2`, `L3` written, the accumulators
    with `LS0`, `LS1`. -/
noncomputable def kernelRun0_C (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i)
    (x0 : Vec F S512x256 .f32) (x1 : Vec F S2048x256 .f32) (xs0 : Vec F S1x1 .f32) (xs1 : Vec F S1x2048 .f32) :
    Σ' (L2 : List (View.Piece (Elt F) S1x1 .f32)) (L3 : List (View.Piece (Elt F) S1x1 .f32)) (LS0 : List (View.Piece (Elt F) S1x1 .f32)), { LS1 : List (View.Piece (Elt F) S1x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0_kernel i arg1 harg1 arg2 harg2 arg3 harg3 arg4 harg4 arg5 harg5 arg6 harg6) K } := by
  refine ⟨?_, ?_, ?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Fr

end
-- ==== Proof.KI.R0Frame.lean ====
/-
  Region 0: what its two outputs and its two accumulators hold after each grid point, the region invariant that
  carries the accumulators from point to point, the proof data of the pipeline and the body obligation.

  The 64 grid points fall into three control cases: the first point (the accumulators are reset, then updated), the
  points 1 … 62 (updated), the last point (updated, then the two means stored into the outputs). The two outputs
  are idle and not written back before the last point.
-/
import proofs.«145222_j55370718380495_1_alg».proof.Proof.KI.R0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case's pieces leave (read back over anything: the pieces cover the buffer) -/

theorem scover0_A_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i) (x0 : Vec F S512x256 .f32) (x1 : Vec F S2048x256 .f32) (y : S1x1.Idx) : ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S1x1.size (by sl_kernel_rfl) y

theorem scover0_A_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i) (x0 : Vec F S512x256 .f32) (x1 : Vec F S2048x256 .f32) (y : S1x2048.Idx) : ∃ pc ∈ (kernelRun0_A c i arg1 harg1 arg2 harg2 arg3 harg3 arg4 harg4 arg5 harg5 arg6 harg6 hc0 hc1 x0 x1).2.1, y ∈ pc.1.set :=
  View.cover_of_tiledL (kernelRun0_A c i arg1 harg1 arg2 harg2 arg3 harg3 arg4 harg4 arg5 harg5 arg6 harg6 hc0 hc1 x0 x1).2.1 S1x2048.size (by sl_kernel_rfl) y

def sout0_A_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i) (x0 : Vec F S512x256 .f32) (x1 : Vec F S2048x256 .f32) : Vec F S1x1 .f32 :=
  VS0_0.read (Elt F) (VS0_0.writes (Elt F) VS0_0.junk (kernelRun0_A c i arg1 harg1 arg2 harg2 arg3 harg3 arg4 harg4 arg5 harg5 arg6 harg6 hc0 hc1 x0 x1).1)

def sout0_A_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i) (x0 : Vec F S512x256 .f32) (x1 : Vec F S2048x256 .f32) : Vec F S1x2048 .f32 :=
  VS0_1.read (Elt F) (VS0_1.writes (Elt F) VS0_1.junk (kernelRun0_A c i arg1 harg1 arg2 harg2 arg3 harg3 arg4 harg4 arg5 harg5 arg6 harg6 hc0 hc1 x0 x1).2.1)

theorem scover0_B_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i) (x0 : Vec F S512x256 .f32) (x1 : Vec F S2048x256 .f32) (xs0 : Vec F S1x1 .f32) (xs1 : Vec F S1x2048 .f32) (y : S1x1.Idx) : ∃ pc ∈ (kernelRun0_B c i arg1 harg1 arg2 harg2 arg3 harg3 arg4 harg4 arg5 harg5 arg6 harg6 hc0 hc1 x0 x1 xs0 xs1).1, y ∈ pc.1.set :=
  View.cover_of_tiledL (kernelRun0_B c i arg1 harg1 arg2 harg2 arg3 harg3 arg4 harg4 arg5 harg5 arg6 harg6 hc0 hc1 x0 x1 xs0 xs1).1 S1x1.size (by sl_kernel_rfl) y

theorem scover0_B_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i) (x0 : Vec F S512x256 .f32) (x1 : Vec F S2048x256 .f32) (xs0 : Vec F S1x1 .f32) (xs1 : Vec F S1x2048 .f32) (y : S1x2048.Idx) : ∃ pc ∈ (kernelRun0_B c i arg1 harg1 arg2 harg2 arg3 harg3 arg4 harg4 arg5 harg5 arg6 harg6 hc0 hc1 x0 x1 xs0 xs1).2.1, y ∈ pc.1.set :=
  View.cover_of_tiledL (kernelRun0_B c i arg1 harg1 arg2 harg2 arg3 harg3 arg4 harg4 arg5 harg5 arg6 harg6 hc0 hc1 x0 x1 xs0 xs1).2.1 S1x2048.size (by sl_kernel_rfl) y

def sout0_B_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i) (x0 : Vec F S512x256 .f32) (x1 : Vec F S2048x256 .f32) (xs0 : Vec F S1x1 .f32) (xs1 : Vec F S1x2048 .f32) : Vec F S1x1 .f32 :=
  VS0_0.read (Elt F) (VS0_0.writes (Elt F) VS0_0.junk (kernelRun0_B c i arg1 harg1 arg2 harg2 arg3 harg3 arg4 harg4 arg5 harg5 arg6 harg6 hc0 hc1 x0 x1 xs0 xs1).1)

def sout0_B_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i) (x0 : Vec F S512x256 .f32) (x1 : Vec F S2048x256 .f32) (xs0 : Vec F S1x1 .f32) (xs1 : Vec F S1x2048 .f32) : Vec F S1x2048 .f32 :=
  VS0_1.read (Elt F) (VS0_1.writes (Elt F) VS0_1.junk (kernelRun0_B c i arg1 harg1 arg2 harg2 arg3 harg3 arg4 harg4 arg5 harg5 arg6 harg6 hc0 hc1 x0 x1 xs0 xs1).2.1)

theorem cover0_C_2 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) (y : S1x1.Idx) : ∃ pc ∈ (kernelRun0_C c i arg1 harg1 arg2 harg2 arg3 harg3 arg4 harg4 arg5 harg5 arg6 harg6 hc0 hc1 x0 x1 xs0 xs1).1, y ∈ pc.1.set :=
  View.cover_of_tiledL (kernelRun0_C c i arg1 harg1 arg2 harg2 arg3 harg3 arg4 harg4 arg5 harg5 arg6 harg6 hc0 hc1 x0 x1 xs0 xs1).1 S1x1.size (by sl_kernel_rfl) y

theorem cover0_C_3 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) (y : S1x1.Idx) : ∃ pc ∈ (kernelRun0_C c i arg1 harg1 arg2 harg2 arg3 harg3 arg4 harg4 arg5 harg5 arg6 harg6 hc0 hc1 x0 x1 xs0 xs1).2.1, y ∈ pc.1.set :=
  View.cover_of_tiledL (kernelRun0_C c i arg1 harg1 arg2 harg2 arg3 harg3 arg4 harg4 arg5 harg5 arg6 harg6 hc0 hc1 x0 x1 xs0 xs1).2.1 S1x1.size (by sl_kernel_rfl) y

theorem scover0_C_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) (y : S1x1.Idx) : ∃ pc ∈ (kernelRun0_C c i arg1 harg1 arg2 harg2 arg3 harg3 arg4 harg4 arg5 harg5 arg6 harg6 hc0 hc1 x0 x1 xs0 xs1).2.2.1, y ∈ pc.1.set :=
  View.cover_of_tiledL (kernelRun0_C c i arg1 harg1 arg2 harg2 arg3 harg3 arg4 harg4 arg5 harg5 arg6 harg6 hc0 hc1 x0 x1 xs0 xs1).2.2.1 S1x1.size (by sl_kernel_rfl) y

theorem scover0_C_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) (y : S1x2048.Idx) : ∃ pc ∈ (kernelRun0_C c i arg1 harg1 arg2 harg2 arg3 harg3 arg4 harg4 arg5 harg5 arg6 harg6 hc0 hc1 x0 x1 xs0 xs1).2.2.2.1, y ∈ pc.1.set :=
  View.cover_of_tiledL (kernelRun0_C c i arg1 harg1 arg2 harg2 arg3 harg3 arg4 harg4 arg5 harg5 arg6 harg6 hc0 hc1 x0 x1 xs0 xs1).2.2.2.1 S1x2048.size (by sl_kernel_rfl) y

def out0_C_2 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) : Vec F S1x1 .f32 :=
  VO0_2.read (Elt F) (VO0_2.writes (Elt F) VO0_2.junk (kernelRun0_C c i arg1 harg1 arg2 harg2 arg3 harg3 arg4 harg4 arg5 harg5 arg6 harg6 hc0 hc1 x0 x1 xs0 xs1).1)

def out0_C_3 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) : Vec F S1x1 .f32 :=
  VO0_3.read (Elt F) (VO0_3.writes (Elt F) VO0_3.junk (kernelRun0_C c i arg1 harg1 arg2 harg2 arg3 harg3 arg4 harg4 arg5 harg5 arg6 harg6 hc0 hc1 x0 x1 xs0 xs1).2.1)

def sout0_C_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) : Vec F S1x1 .f32 :=
  VS0_0.read (Elt F) (VS0_0.writes (Elt F) VS0_0.junk (kernelRun0_C c i arg1 harg1 arg2 harg2 arg3 harg3 arg4 harg4 arg5 harg5 arg6 harg6 hc0 hc1 x0 x1 xs0 xs1).2.2.1)

def sout0_C_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) : Vec F S1x2048 .f32 :=
  VS0_1.read (Elt F) (VS0_1.writes (Elt F) VS0_1.junk (kernelRun0_C c i arg1 harg1 arg2 harg2 arg3 harg3 arg4 harg4 arg5 harg5 arg6 harg6 hc0 hc1 x0 x1 xs0 xs1).2.2.2.1)

/-- A placeholder for an output's staging buffer at a point where the window is idle and not written back: nothing reads it. -/
def idleOut : Vec F S1x1 .f32 := VO0_2.read (Elt F) VO0_2.junk

/-! ## The conditions at a point, from its position -/

theorem cond0_0_of (t : Fin cfg0.N) (h : t.val = 0) : cond0_0 (grid0.coords t) := (hcond0_0 t).mpr (by rw [h])
theorem ncond0_0_of (t : Fin cfg0.N) (h : t.val ≠ 0) : ¬cond0_0 (grid0.coords t) := fun hc => by
  have h1 := (hcond0_0 t).mp hc
  have hN : t.val < 64 := lt_of_lt_of_eq t.isLt (show cfg0.N = 64 from N_0)
  omega
theorem cond0_1_of (t : Fin cfg0.N) (h : t.val % 64 = 63) : cond0_1 (grid0.coords t) := (hcond0_1 t).mpr h
theorem ncond0_1_of (t : Fin cfg0.N) (h : ¬t.val % 64 = 63) : ¬cond0_1 (grid0.coords t) := fun hc => h ((hcond0_1 t).mp hc)

section R0
variable (V : (c : Dev nD) → (b : Ref sig .tc) → Buf (Elt F) ((c : Thread nD τ).loc b))

/-! ## One point's step, per case, at the point's memrefs and input blocks -/

/-- The accumulators after the first point. -/
def stepA (c : Dev nD) (t : Fin cfg0.N) (hc0 : cond0_0 (grid0.coords t)) (hc1 : ¬cond0_1 (grid0.coords t)) : Vec F S1x1 .f32 × Vec F S1x2048 .f32 :=
  (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t))
/-- The accumulators after a middle point, from what the point before left. -/
def stepB (c : Dev nD) (t : Fin cfg0.N) (hc0 : ¬cond0_0 (grid0.coords t)) (hc1 : ¬cond0_1 (grid0.coords t)) (xs0 : Vec F S1x1 .f32) (xs1 : Vec F S1x2048 .f32) : Vec F S1x1 .f32 × Vec F S1x2048 .f32 :=
  (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1,
   sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1)
/-- The outputs and the accumulators after the last point, from what the point before left. -/
def stepC (c : Dev nD) (t : Fin cfg0.N) (hc0 : ¬cond0_0 (grid0.coords t)) (hc1 : cond0_1 (grid0.coords t)) (xs0 : Vec F S1x1 .f32) (xs1 : Vec F S1x2048 .f32) : Vec F S1x1 .f32 × Vec F S1x1 .f32 × Vec F S1x1 .f32 × Vec F S1x2048 .f32 :=
  (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1,
   out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1,
   sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1,
   sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) xs0 xs1)

/-! ## What the outputs and the accumulators hold after each point -/

/-- After the body at position `n`: the two outputs' staging buffers, then the two accumulators. -/
def outsAt0 (c : Dev nD) : (n : ℕ) → n < cfg0.N → Vec F S1x1 .f32 × Vec F S1x1 .f32 × Vec F S1x1 .f32 × Vec F S1x2048 .f32
  | 0, hn => (idleOut, idleOut,
      (stepA V c ⟨0, hn⟩ (cond0_0_of ⟨0, hn⟩ rfl) (ncond0_1_of ⟨0, hn⟩ (by show ¬(0 : ℕ) % 64 = 63; decide))).1,
      (stepA V c ⟨0, hn⟩ (cond0_0_of ⟨0, hn⟩ rfl) (ncond0_1_of ⟨0, hn⟩ (by show ¬(0 : ℕ) % 64 = 63; decide))).2)
  | n + 1, hn =>
    if h1 : (n + 1) % 64 = 63 then
      stepC V c ⟨n + 1, hn⟩ (ncond0_0_of ⟨n + 1, hn⟩ (Nat.succ_ne_zero n)) (cond0_1_of ⟨n + 1, hn⟩ h1)
        (outsAt0 c n (Nat.lt_of_succ_lt hn)).2.2.1 (outsAt0 c n (Nat.lt_of_succ_lt hn)).2.2.2
    else
      (idleOut, idleOut,
        (stepB V c ⟨n + 1, hn⟩ (ncond0_0_of ⟨n + 1, hn⟩ (Nat.succ_ne_zero n)) (ncond0_1_of ⟨n + 1, hn⟩ h1)
          (outsAt0 c n (Nat.lt_of_succ_lt hn)).2.2.1 (outsAt0 c n (Nat.lt_of_succ_lt hn)).2.2.2).1,
        (stepB V c ⟨n + 1, hn⟩ (ncond0_0_of ⟨n + 1, hn⟩ (Nat.succ_ne_zero n)) (ncond0_1_of ⟨n + 1, hn⟩ h1)
          (outsAt0 c n (Nat.lt_of_succ_lt hn)).2.2.1 (outsAt0 c n (Nat.lt_of_succ_lt hn)).2.2.2).2)

/-- At the first point. -/
theorem outsAt0_A (c : Dev nD) (t : Fin cfg0.N) (h0 : t.val = 0) (hc0 : cond0_0 (grid0.coords t)) (hc1 : ¬cond0_1 (grid0.coords t)) :
    outsAt0 V c t.val t.isLt = (idleOut, idleOut, (stepA V c t hc0 hc1).1, (stepA V c t hc0 hc1).2) := by
  obtain ⟨n, hn⟩ := t
  cases n with
  | zero => rfl
  | succ n => exact absurd h0 (Nat.succ_ne_zero n)

/-- At a middle point: over what the point before left. -/
theorem outsAt0_B (c : Dev nD) (t : Fin cfg0.N) (h0 : t.val ≠ 0) (h1 : ¬t.val % 64 = 63) (hc0 : ¬cond0_0 (grid0.coords t)) (hc1 : ¬cond0_1 (grid0.coords t)) :
    outsAt0 V c t.val t.isLt = (idleOut, idleOut,
      (stepB V c t hc0 hc1 (outsAt0 V c (t.val - 1) (Nat.lt_of_le_of_lt (Nat.sub_le _ _) t.isLt)).2.2.1 (outsAt0 V c (t.val - 1) (Nat.lt_of_le_of_lt (Nat.sub_le _ _) t.isLt)).2.2.2).1,
      (stepB V c t hc0 hc1 (outsAt0 V c (t.val - 1) (Nat.lt_of_le_of_lt (Nat.sub_le _ _) t.isLt)).2.2.1 (outsAt0 V c (t.val - 1) (Nat.lt_of_le_of_lt (Nat.sub_le _ _) t.isLt)).2.2.2).2) := by
  obtain ⟨n, hn⟩ := t
  cases n with
  | zero => exact absurd rfl h0
  | succ n => exact (dif_neg h1).trans rfl

/-- At the last point: over what the point before left. -/
theorem outsAt0_C (c : Dev nD) (t : Fin cfg0.N) (h0 : t.val ≠ 0) (h1 : t.val % 64 = 63) (hc0 : ¬cond0_0 (grid0.coords t)) (hc1 : cond0_1 (grid0.coords t)) :
    outsAt0 V c t.val t.isLt = stepC V c t hc0 hc1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd rfl h0
  | succ n => exact (dif_pos h1).trans rfl

/-- The region invariant before position `n`: before the first point the launch's; afterwards the accumulators at what
    the point before left in them, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ otherScoped (F := F) c) ∗ (∃ r, prngReg c r)) := by
  cases n with
  | zero => exact absurd rfl hz
  | succ n => rfl

/-! ## The pipeline's proof data -/

/-- The proof data of the region's pipeline on core `c`: the arrays as the region finds them; after the body at point
    `t` each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the position says which case the point is in; the
    invariant hands the body the accumulators at what the point before left (at anything at the first point) and takes
    them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · -- the first point
    have hc0 : cond0_0 (grid0.coords t) := cond0_0_of t h0
    have hc1 : ¬cond0_1 (grid0.coords t) := ncond0_1_of t (by omega)
    rw [Dat.leavesExact_idle (dat0 V c) 2 t (idleAt0_2 t hc1) (noFlush0_2 t hc1),
      Dat.leavesExact_idle (dat0 V c) 3 t (idleAt0_3 t hc1) (noFlush0_3 t hc1)]
    rw [outsAt0_A V c t h0 hc0 hc1]
    unfold stepA sout0_A_0 sout0_A_1; (try dsimp only)
    rw [PhiS_castSucc V c t, PhiS_zero V c _ _ h0, PhiA0_eq]
    iintro ⟨⟨⟨HS0, HS1, Hoth⟩, Hg⟩, Ho, ⟨%d0, H0⟩, ⟨%d1, H1⟩, ⟨%d2, H2⟩, ⟨%d3, H3⟩⟩
    iapply ((kernelRun0_A c (grid0.coords t) _ _ _ _ _ _ _ _ _ _ _ _ hc0 hc1 (iblk0 V c 0 t) (iblk0 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover0_A_0 c _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _)
        iexact Hoth
      iexact Hg
    isplitl [Ho]; · iexact Ho
    isplitl [H0]; · iexact H0
    isplitl [H1]; · iexact H1
    isplitl [H2]; · iexists _; iexact H2
    iexists _; iexact H3
  · have hc0 : ¬cond0_0 (grid0.coords t) := ncond0_0_of t h0
    by_cases h1 : t.val % 64 = 63
    · -- the last point
      have hc1 : cond0_1 (grid0.coords t) := cond0_1_of t h1
      rw [show (dat0 V c).leavesExact 2 t = owns (c : Thread nD τ) (ms0_2 t) fullShare ((dat0 V c).after 2 t) from by
        unfold Dat.leavesExact; rw [liveAt0_2 t hc1], after0_2]
      rw [show (dat0 V c).leavesExact 3 t = owns (c : Thread nD τ) (ms0_3 t) fullShare ((dat0 V c).after 3 t) from by
        unfold Dat.leavesExact; rw [liveAt0_3 t hc1], after0_3]
      rw [outsAt0_C V c t h0 h1 hc0 hc1]
      unfold stepC out0_C_2 out0_C_3 sout0_C_0 sout0_C_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · -- a middle point
      have hc1 : ¬cond0_1 (grid0.coords t) := ncond0_1_of t h1
      rw [Dat.leavesExact_idle (dat0 V c) 2 t (idleAt0_2 t hc1) (noFlush0_2 t hc1),
        Dat.leavesExact_idle (dat0 V c) 3 t (idleAt0_3 t hc1) (noFlush0_3 t hc1)]
      rw [outsAt0_B V c t h0 h1 hc0 hc1]
      unfold stepB sout0_B_0 sout0_B_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end R0

end Cert.KernelIdeal.Fr

end
-- ==== Proof.KI.R1Frame.lean ====
/-
  Region 1 (the kernel that normalises each row of a block of the first operand and multiplies the result with the
  transposed second operand): the blocks its two input windows hold at a grid point, what its body leaves in each of
  its two output windows' staging buffers as a closed function of those blocks, the body's triple, the proof data of
  its pipeline and the body obligation — everything at the buffer contents the region is entered from.
-/
import proofs.«145222_j55370718380495_1_alg».proof.Proof.Gen.KernelIdeal.Launch
import proofs.«145222_j55370718380495_1_alg».proof.Proof.Gen.KernelIdeal.Skeleton
import proofs.«145222_j55370718380495_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R1
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the entry contents' and whose body leaves the block in place: where the pipeline does not
    fetch, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x256 := Rect.unit (s := S512x256) ![0, 0] S512x256.size inb_S512x256_S512x256_0_0
abbrev r1_1 : Rect S2048x256 := Rect.unit (s := S2048x256) ![0, 0] S2048x256.size inb_S2048x256_S2048x256_0_0
abbrev r1_3 : Rect S512x2048 := Rect.unit (s := S512x2048) ![0, 0] S512x2048.size inb_S512x2048_S512x2048_0_0

/-! ## What the body leaves in each output window's buffer -/

/-- Window 2's staging buffer after the body, from the input windows' blocks: its one store, of the row-normalised
    first block. -/
def out1_2 (x0 : Vec F S512x256 .f32) : Vec F S512x256 .f32 :=
  View.canon [⟨r1_0, k1_pay1 (View.ld x0 r1_0)⟩]

/-- Window 3's staging buffer after the body: its one store, of the product of the row-normalised first block with
    the transposed second block. -/
def out1_3 (x0 : Vec F S512x256 .f32) (x1 : Vec F S2048x256 .f32) : Vec F S512x2048 .f32 :=
  View.canon [⟨r1_3, k1_pay2 (View.ld x0 r1_0) (View.ld x1 r1_1)⟩]

/-- The one store into window 2's buffer is of the whole buffer, so it covers it. -/
theorem cover1_2 (p0 : Vec F S512x256 .f32) (y : S512x256.Idx) :
    ∃ pc ∈ ([⟨r1_0, p0⟩] : List (View.Piece (Elt F) S512x256 .f32)), y ∈ pc.1.set :=
  View.cover_of_tiled [⟨r1_0, p0⟩] S512x256.size (by rfl) y
/-- The one store into window 3's buffer is of the whole buffer, so it covers it. -/
theorem cover1_3 (p0 : Vec F S512x2048 .f32) (y : S512x2048.Idx) :
    ∃ pc ∈ ([⟨r1_3, p0⟩] : List (View.Piece (Elt F) S512x2048 .f32)), y ∈ pc.1.set :=
  View.cover_of_tiled [⟨r1_3, p0⟩] S512x2048.size (by rfl) y

/-! ## The body's triple -/

set_option maxHeartbeats 1000000 in
/-- The kernel body on whole staging memrefs, the inputs' at read contents `x0`, `x1` and the outputs' at anything, runs
    to the continuation holding the inputs' as they were and each output's at `out1_W` of the inputs'. The body reads each
    output's buffer before it stores into it and uses neither value. -/
theorem sound_kernel1 (c : Dev nD) (E : Set ℕ) (i : grid1.Coords)
    (arg1 : Memref sig .tc .vmem S512x256 .f32) (harg1 : arg1.IsWhole) (arg2 : Memref sig .tc .vmem S2048x256 .f32) (harg2 : arg2.IsWhole)
    (arg3 : Memref sig .tc .vmem S512x256 .f32) (harg3 : arg3.IsWhole) (arg4 : Memref sig .tc .vmem S512x2048 .f32) (harg4 : arg4.IsWhole)
    (x0 : Vec F S512x256 .f32) (x1 : Vec F S2048x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0) ∗ owns (c : Thread nD τ) arg4 fullShare (out1_3 x0 x1)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of the region's pipeline on core `c`: the arrays as the region finds them; after the body at point
    `t` each input's buffer at its block and each output's at `out1_W` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t)
    | ⟨3, _⟩ => out1_3 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end R1

end Cert.KernelIdeal.Fr

end
-- ==== Proof.KI.Run.lean ====
/-
  The run of the two-region program: the buffer contents at every boundary between its four segments (a stretch of
  host operations, the first kernel region, a second stretch, the second kernel region) as a fold from the launch
  memory; each segment over the thread state "every unscoped buffer at the boundary's contents, the generator register
  at some state, nothing owed"; the launch over the segments; and, read off the last boundary, that every final state
  has each unscoped buffer at the fold's last contents — in particular the five argument arrays as launched, and the
  two results at what the second region's write-backs leave.
-/
import proofs.«145222_j55370718380495_1_alg».proof.Proof.KI.R0Frame
import proofs.«145222_j55370718380495_1_alg».proof.Proof.KI.R1Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the first stretch of host operations (the first region's entry). -/
abbrev W1 : Dev nD → Valuation τ sig (Elt F) := fun c => StableHlo.after hostOps0 (W0 m ρ c)
/-- The same read at the core's references (what the first region's proof data take). -/
abbrev V1 : (c : Dev nD) → (b : Ref sig .tc) → Buf (Elt F) ((c : Thread nD τ).loc b) := fun c b => W1 m ρ c b
/-- At the first region's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (the first region's exit contents). -/
abbrev V2 : (c : Dev nD) → (b : Ref sig .tc) → Buf (Elt F) ((c : Thread nD τ).loc b) := fun c b => W2 m ρ c b
/-- At the first region's exit each of its arrays holds what the pipeline leaves and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the second region's entry). -/
abbrev W3 : Dev nD → Valuation τ sig (Elt F) := fun c => StableHlo.after hostOps1 (W2 m ρ c)
/-- The same read at the core's references (what the second region's proof data take). -/
abbrev V3 : (c : Dev nD) → (b : Ref sig .tc) → Buf (Elt F) ((c : Thread nD τ).loc b) := fun c b => W3 m ρ c b
/-- At the second region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (the second region's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one, and a region reads it through an input window
    (the first two) or bypasses it (the other three), so the fold at an argument's buffer walks back to the launch
    memory -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_main_arg0 m ρ c
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := W1_main_arg1 m ρ c
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W2_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_main_arg2 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_main_arg3 m ρ c
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W2_main_arg4 m ρ c
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = m ((c : Thread nD τ).loc main_arg0) := W3_main_arg0 m ρ c
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = m ((c : Thread nD τ).loc main_arg1) := W3_main_arg1 m ρ c
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)

/-- The two operands of both regions, as each region finds them: the launch contents. -/
theorem V1_main_arg0 (c : Dev nD) : V1 m ρ c main_arg0 = m ((c : Thread nD τ).loc main_arg0) := W1_main_arg0 m ρ c
theorem V1_main_arg1 (c : Dev nD) : V1 m ρ c main_arg1 = m ((c : Thread nD τ).loc main_arg1) := W1_main_arg1 m ρ c
theorem V3_main_arg0 (c : Dev nD) : V3 m ρ c main_arg0 = m ((c : Thread nD τ).loc main_arg0) := W3_main_arg0 m ρ c
theorem V3_main_arg1 (c : Dev nD) : V3 m ρ c main_arg1 = m ((c : Thread nD τ).loc main_arg1) := W3_main_arg1 m ρ c

/-! ### The results, read off the boundaries -/

/-- The first region's two results at its exit: what its write-backs leave. -/
theorem W2_v3_0 (c : Dev nD) : W2 m ρ c (Proc.devRef .tc main_v3_0) = (dat0 (V1 m ρ) c).arrAt 2 cfg0.N := W2_arr m ρ c 2
theorem W2_v3_1 (c : Dev nD) : W2 m ρ c (Proc.devRef .tc main_v3_1) = (dat0 (V1 m ρ) c).arrAt 3 cfg0.N := W2_arr m ρ c 3
/-- The second region's two results at the end: what its write-backs leave. -/
theorem W4_v9_0 (c : Dev nD) : W4 m ρ c (Proc.devRef .tc main_v9_0) = (dat1 (V3 m ρ) c).arrAt 2 cfg1.N := W4_arr m ρ c 2
theorem W4_v9_1 (c : Dev nD) : W4 m ρ c (Proc.devRef .tc main_v9_1) = (dat1 (V3 m ρ) c).arrAt 3 cfg1.N := W4_arr m ρ c 3
/-- The scalar the first stretch computes is written by nothing after it. -/
theorem W4_main_v2 (c : Dev nD) : W4 m ρ c (Proc.devRef .tc main_v2) = W1 m ρ c (Proc.devRef .tc main_v2) :=
  calc W4 m ρ c (Proc.devRef .tc main_v2)
    _ = W3 m ρ c (Proc.devRef .tc main_v2) := W4_of_ne m ρ c main_v2 (by decide)
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v2) := W2_of_ne m ρ c main_v2 (by decide)
/-- The scalar the second stretch computes is not written by the second region. -/
theorem W4_main_v8 (c : Dev nD) : W4 m ρ c (Proc.devRef .tc main_v8) = W3 m ρ c (Proc.devRef .tc main_v8) :=
  W4_of_ne m ρ c main_v8 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W1`, left at `W2`. Its arrays are
    split out of the unscoped buffers and put back at the exit contents; the generator register goes into the launch's
    invariant, which the region's own invariant starts from and ends in (in between it carries the two accumulators);
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V1 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ (Pipeline.ΦA spec0 c : sProp 𝕄) := hout0 (V1 m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4` (what the launch
    reads at the end). Its arrays are split out of the unscoped buffers and put back at the exit contents; the generator
    register goes into the launch's invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 4 segments in order: a host segment per stretch from its boundary's contents, a region per kernel
    call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of the program on the
    cores terminates, nothing faulting, and every final state has each unscoped buffer of each core at the last
    boundary's contents `W4`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every final state has the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_all m ρ)

end Cert.KernelIdeal.Fr

end
-- ==== Proof.RefGen.lean ====
/-
  The reference's run and its read-at-an-index lemmas, as generated; the hand modules about the reference import this one.
-/
import proofs.«145222_j55370718380495_1_alg».proof.Proof.Gen.ReferenceIdeal.Run
import proofs.«145222_j55370718380495_1_alg».proof.Proof.Gen.ReferenceIdeal.Read
-- ==== Proof.Spec.lean ====
/-
  The mathematics both programs compute, on the extended reals, index by index.

  For an array `x` of rows (shape [A, K]) and an array `y` of rows (shape [B, K]):
  `rowSq x r` is the squared length of row r, `rowDot x y r j` the inner product of row r of x with row j of y,
  `dist x y r j = sqrt (max (|x_r|² + |y_j|² − 2·<x_r, y_j>) 0)` the distance between the two rows,
  `rowMin` / `colMin` its minimum over j / over r (the infimum over the finite index type, +∞ over no index).
  The loss is half the mean over rows of the row minima plus half the mean over columns of the column minima
  (the means as quotients by 32768 and by 2048); `xnorm` divides each row by the larger of its length and a
  fixed small constant; `xmap` is the matrix of inner products of the normalised rows with the rows of y.
  Float literals are kept as their words: the same word reads the same on both sides.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An array of A rows of length K, on the extended reals. -/
abbrev Mat (A K : ℕ) : Type := (⟨2, ![A, K]⟩ : Shape).Idx → EReal

def rowSq {A K : ℕ} (x : Mat A K) (r : Fin A) : EReal := ∑ k : Fin K, x (ix2 r k) * x (ix2 r k)

def rowDot {A B K : ℕ} (x : Mat A K) (y : Mat B K) (r : Fin A) (j : Fin B) : EReal := ∑ k : Fin K, x (ix2 r k) * y (ix2 j k)

def dist {A B K : ℕ} (x : Mat A K) (y : Mat B K) (r : Fin A) (j : Fin B) : EReal :=
  Ideal.sqrt (max (rowSq x r + rowSq y j - Ideal.ofBits .f32 0x40000000#32 * rowDot x y r j) (Ideal.ofBits .f32 0x00000000#32))

def rowMin {A B K : ℕ} (x : Mat A K) (y : Mat B K) (r : Fin A) : EReal := Finset.univ.inf fun j : Fin B => dist x y r j

def colMin {A B K : ℕ} (x : Mat A K) (y : Mat B K) (j : Fin B) : EReal := Finset.univ.inf fun r : Fin A => dist x y r j

/-- Half the mean of the row minima plus half the mean of the column minima. -/
def loss (z : Mat 32768 256) (p : Mat 2048 256) : EReal :=
  Ideal.ofBits .f32 0x3F000000#32 * Ideal.div (∑ r : Fin 32768, rowMin z p r) (Ideal.ofBits .f32 0x47000000#32)
    + Ideal.ofBits .f32 0x3F000000#32 * Ideal.div (∑ j : Fin 2048, colMin z p j) (Ideal.ofBits .f32 0x45000000#32)

/-- The A' consecutive rows of x from row `off` on, as an array of their own. -/
def rowsAt {A K : ℕ} (x : Mat A K) (A' off : ℕ) (h : off + A' ≤ A) : Mat A' K :=
  fun i => x (ix2 ⟨off + (i 0).val, by have := idx2_lt0 i; omega⟩ (i 1))

/-- Each row divided by the larger of its length and the small constant. -/
def xnorm {A K : ℕ} (x : Mat A K) : Mat A K := fun i =>
  Ideal.div (x i) (max (Ideal.sqrt (rowSq x (i 0))) (Ideal.ofBits .f32 0x2B8CBCCC#32))

/-- The inner products of the normalised rows of x with the rows of y. -/
def xmap {A B K : ℕ} (x : Mat A K) (y : Mat B K) : Mat A B := fun i => rowDot (xnorm x) y (i 0) (i 1)

end Cert.Spec

end
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibHostMin.lean ====
/-
  The host's minimum reduction of a matrix over ONE axis, read at a result index on the extended reals: along the
  columns (one value per row) it is the fold of min, from the initial value, over the row's entries; along the rows
  (one value per column) the fold over the column's entries. A minimum commutes and associates, so the order the
  reduction visits the axis in does not matter. Both are generic in the matrix's two extents.
  Also: a rank-1 index set is its coordinate's range, so a sum over it is the sum over the coordinate.
-/
import Idealize.ShloMosaic.PureOps.Ideal.Laws
import Idealize.ShloMosaic.PureOps.Reduce
import Idealize.ShloMosaic.Lib.ValueIdx
import proofs.«145222_j55370718380495_1_alg».proof.Proof.LibMinReduce

noncomputable section

namespace Cert.HostMin

open Idealize.ShloMosaic Idealize.ShloMosaic.ValueIdx

/-- The host's minimum reduction along the columns, read at row p: the fold of min from the initial value over the row. -/
theorem rowMin_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.minimumf x init h' hu (ix1 p)
      = (Finset.univ : Finset (Fin b)).fold min (init (Shape.Idx.first hu)) (fun c => x (ix2 p c)) := by
  rw [Host.reduce_eq_fold_single FloatOps.minimumf x init h' h hu]
  exact congrArg (fun f => Finset.fold min (init (Shape.Idx.first hu)) f (Finset.univ : Finset (Fin b)))
    (funext fun c => congrArg x (Cert.MinReduce.lift_cols h p c))

/-- The host's minimum reduction along the rows, read at column c: the fold of min from the initial value over the column. -/
theorem colMin_apply {a b : ℕ} (x : FVec Ideal ⟨2, ![a, b]⟩ .f32) (init : (⟨0, ![]⟩ : Shape).Idx → Ideal .f32)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (c : Fin b) :
    Host.reduce FloatOps.minimumf x init h' hu (ix1 c)
      = (Finset.univ : Finset (Fin a)).fold min (init (Shape.Idx.first hu)) (fun p => x (ix2 p c)) := by
  rw [Host.reduce_eq_fold_single FloatOps.minimumf x init h' h hu]
  exact congrArg (fun f => Finset.fold min (init (Shape.Idx.first hu)) f (Finset.univ : Finset (Fin a)))
    (funext fun p => congrArg x (Cert.MinReduce.lift_rows h c p))

/-- On the extended reals the fold of min from +∞ over a finite index type is the infimum over it. -/
theorem fold_min_top {ι : Type} [Fintype ι] (f : ι → EReal) :
    (Finset.univ : Finset ι).fold min ⊤ f = Finset.univ.inf f := rfl

/-- The f32 word of +∞ is +∞. -/
theorem ofBits_inf_f32 : Ideal.ofBits .f32 0x7F800000#32 = ⊤ := by simp [Ideal.ofBits, Ideal.ieee]

/-- A rank-1 index set is the range of its coordinate. -/
def idxEquiv1 {n : ℕ} : Fin n ≃ (⟨1, ![n]⟩ : Shape).Idx where
  toFun := ix1
  invFun j := j 0
  left_inv _ := rfl
  right_inv j := (eq_ix1 j).symm

/-- So a sum over it is the sum over the coordinate. -/
theorem sum_idx1 {M : Type*} [AddCommMonoid M] {n : ℕ} (f : (⟨1, ![n]⟩ : Shape).Idx → M) :
    ∑ j, f j = ∑ r : Fin n, f (ix1 r) :=
  (Equiv.sum_comp idxEquiv1 f).symm

end Cert.HostMin

end
-- ==== Proof.RefDist.lean ====
/-
  The reference's distance matrix, entry by entry: at (r, j) it is the specification's distance between row r of the
  first array and row j of the second — the two squared lengths (each a sum from the zero word, which is 0), minus
  twice (the word of 2) the inner product (the dot product against the transposed second array), floored at the
  zero word, under the square root. Its minima over a row and over a column are the folds of min from the word of
  +∞, which on the extended reals are the infima over the finite index types.
-/
import proofs.«145222_j55370718380495_1_alg».proof.Proof.RefGen
import proofs.«145222_j55370718380495_1_alg».proof.Proof.Spec
import proofs.«145222_j55370718380495_1_alg».proof.Proof.LibHostMin

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- Entry (r, j) of the reference's distance matrix is the distance between row r of x0 and row j of x1. -/
theorem ref_dist (x0 : (⟨S32768x256, .f32⟩ : BufTy).Contents (Elt Ideal)) (x1 : (⟨S2048x256, .f32⟩ : BufTy).Contents (Elt Ideal)) (r : Fin 32768) (j : Fin 2048) :
    Read.val_main_v19 (F := Ideal) x0 x1 (ix2 r j) = Cert.Spec.dist x0 x1 r j := by
  have e4 : ∀ k : Fin 256, Read.idx_main_v4 (Read.idx_main_v5 (Read.idx_main_v9 (ix2 r j))) k = ix2 r k :=
    fun k => funext fun a => Fin.ext (by match a with | ⟨0, _⟩ => rfl | ⟨1, _⟩ => rfl)
  have e7 : ∀ k : Fin 256, Read.idx_main_v7 (Read.idx_main_v8 (Read.idx_main_v10 (ix2 r j))) k = ix2 j k :=
    fun k => funext fun a => Fin.ext (by match a with | ⟨0, _⟩ => rfl | ⟨1, _⟩ => rfl)
  have el : ∀ k : Fin 256, Read.lidx_main_v13 (ix2 r j) k = ix2 r k :=
    fun k => funext fun a => Fin.ext (by match a with | ⟨0, _⟩ => rfl | ⟨1, _⟩ => rfl)
  have er : ∀ k : Fin 256, Read.idx_main_v12 (Read.ridx_main_v13 (ix2 r j) k) = ix2 j k :=
    fun k => funext fun a => Fin.ext (by match a with | ⟨0, _⟩ => rfl | ⟨1, _⟩ => rfl)
  simp only [Read.val_main_v19_apply, Read.val_main_v18_apply, Read.val_main_v16_apply, Read.val_main_v11_apply,
    Read.val_main_v9_apply, Read.val_main_v5_apply, Read.val_main_v4_apply, Read.val_main_v3_apply, Read.val_main_cst_0_apply,
    Read.val_main_v10_apply, Read.val_main_v8_apply, Read.val_main_v7_apply, Read.val_main_v6_apply, Read.val_main_cst_1_apply,
    Read.val_main_v15_apply, Read.val_main_v14_apply, Read.val_main_cst_2_apply, Read.val_main_v13_apply, Read.val_main_v12_apply,
    Read.val_main_v17_apply, Read.val_main_cst_3_apply, e4, e7, el, er,
    Ideal.hostUnary_sqrt_def, Ideal.maximumf_def, Ideal.subf_def, Ideal.addf_def, Ideal.mulf_def, Ideal.ofBits_def]
  unfold Cert.Spec.dist Cert.Spec.rowSq Cert.Spec.rowDot
  simp only [Ideal.ofBits_zero_f32, zero_add]

/-- The reference's minimum over row r of the distance matrix is the specification's row minimum. -/
theorem ref_rowMin (x0 : (⟨S32768x256, .f32⟩ : BufTy).Contents (Elt Ideal)) (x1 : (⟨S2048x256, .f32⟩ : BufTy).Contents (Elt Ideal)) (r : Fin 32768) :
    Read.val_main_v20 (F := Ideal) x0 x1 (ix1 r) = Cert.Spec.rowMin x0 x1 r := by
  unfold Read.val_main_v20
  rw [Cert.HostMin.rowMin_apply (a := 32768) (b := 2048) _ _ reducesTo_S32768x2048_S32768_d1 (by decide) h_S_ r]
  rw [Read.val_main_cst_4_apply, Ideal.ofBits_def, Cert.HostMin.ofBits_inf_f32, Cert.HostMin.fold_min_top]
  exact congrArg (fun f => Finset.univ.inf f) (funext fun j => ref_dist x0 x1 r j)

/-- The reference's minimum over column j of the distance matrix is the specification's column minimum. -/
theorem ref_colMin (x0 : (⟨S32768x256, .f32⟩ : BufTy).Contents (Elt Ideal)) (x1 : (⟨S2048x256, .f32⟩ : BufTy).Contents (Elt Ideal)) (j : Fin 2048) :
    Read.val_main_v23 (F := Ideal) x0 x1 (ix1 j) = Cert.Spec.colMin x0 x1 j := by
  unfold Read.val_main_v23
  rw [Cert.HostMin.colMin_apply (a := 32768) (b := 2048) _ _ reducesTo_S32768x2048_S2048_d0 (by decide) h_S_ j]
  rw [Read.val_main_cst_7_apply, Ideal.ofBits_def, Cert.HostMin.ofBits_inf_f32, Cert.HostMin.fold_min_top]
  exact congrArg (fun f => Finset.univ.inf f) (funext fun r => ref_dist x0 x1 r j)

end Cert.ReferenceIdeal.RefValue

end
-- ==== Proof.RefValue.lean ====
/-
  The reference's three float results are the specification's functions of its two argument arrays, on the
  extended reals.
  The normalised rows: entry (r, k) is x0(r, k) divided by the larger of the square root of row r's squared length
  (a sum from the zero word, which is 0) and the small constant's word. Their inner products with the rows of x1:
  the dot product against the transposed second array, summed over the shared axis. The loss: each mean is the sum,
  from the zero word, over every index of the row (column) minima of the distance matrix, divided by the word of the
  count, halved by the word of one half; a sum over a rank-1 index set is the sum over its coordinate.
  The run then ends with each result buffer at the specification's function of the arguments as the run found them.
-/
import proofs.«145222_j55370718380495_1_alg».proof.Defs
import proofs.«145222_j55370718380495_1_alg».proof.Proof.RefGen
import proofs.«145222_j55370718380495_1_alg».proof.Proof.Spec
import proofs.«145222_j55370718380495_1_alg».proof.Proof.Gen.Pre_finite_inputs
import proofs.«145222_j55370718380495_1_alg».proof.Proof.LibHostMin
import proofs.«145222_j55370718380495_1_alg».proof.Proof.RefDist

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The reference's normalised array is the specification's: each row over the larger of its length and the constant. -/
theorem ref_xnorm (x0 : (⟨S32768x256, .f32⟩ : BufTy).Contents (Elt Ideal)) :
    Read.val_main_v33 (F := Ideal) x0 = Cert.Spec.xnorm x0 := by
  funext i
  have e : ∀ k : Fin 256, Read.idx_main_call0_v1 (Read.idx_main_call0_v2 (Read.idx_main_v32 i)) k = ix2 (i 0) k :=
    fun k => funext fun a => Fin.ext (by match a with | ⟨0, _⟩ => rfl | ⟨1, _⟩ => rfl)
  simp only [Read.val_main_v33_apply, Read.val_main_v32_apply, Read.val_main_v31_apply, Read.val_main_v29_apply,
    Read.val_main_call0_v2_apply, Read.val_main_call0_v1_apply, Read.val_main_call0_v0_apply, Read.val_main_call0_cst_apply,
    Read.val_main_v30_apply, Read.val_main_cst_12_apply, e,
    Ideal.hostDivf_def, Ideal.maximumf_def, Ideal.hostUnary_sqrt_def, Ideal.mulf_def, Ideal.ofBits_def, Ideal.ofBits_zero_f32, zero_add]
  rfl

/-- The reference's matrix of inner products is the specification's: the normalised rows against the rows of x1. -/
theorem ref_xmap (x0 : (⟨S32768x256, .f32⟩ : BufTy).Contents (Elt Ideal)) (x1 : (⟨S2048x256, .f32⟩ : BufTy).Contents (Elt Ideal)) :
    Read.val_main_v35 (F := Ideal) x0 x1 = Cert.Spec.xmap x0 x1 := by
  funext i
  rw [Read.val_main_v35_apply]
  show _ = ∑ k : Fin 256, Cert.Spec.xnorm x0 (ix2 (i 0) k) * x1 (ix2 (i 1) k)
  refine Finset.sum_congr rfl fun k _ => ?_
  rw [ref_xnorm, Read.val_main_v34_apply]
  exact congrArg₂ (fun u v => Cert.Spec.xnorm x0 u * x1 v)
    (funext fun a => Fin.ext (by match a with | ⟨0, _⟩ => rfl | ⟨1, _⟩ => rfl) : Read.lidx_main_v35 i k = ix2 (i 0) k)
    (funext fun a => Fin.ext (by match a with | ⟨0, _⟩ => rfl | ⟨1, _⟩ => rfl) : Read.idx_main_v34 (Read.ridx_main_v35 i k) = ix2 (i 1) k)

/-- The reference's scalar is the specification's loss: half the mean of the row minima plus half the mean of the column minima. -/
theorem ref_loss (x0 : (⟨S32768x256, .f32⟩ : BufTy).Contents (Elt Ideal)) (x1 : (⟨S2048x256, .f32⟩ : BufTy).Contents (Elt Ideal)) :
    Read.val_main_v28 (F := Ideal) x0 x1 = fun _ => Cert.Spec.loss x0 x1 := by
  funext i
  have hr : ∑ j : S32768.Idx, Read.val_main_v20 (F := Ideal) x0 x1 j = ∑ r : Fin 32768, Cert.Spec.rowMin x0 x1 r :=
    (Cert.HostMin.sum_idx1 _).trans (Finset.sum_congr rfl fun r _ => ref_rowMin x0 x1 r)
  have hc : ∑ j : S2048.Idx, Read.val_main_v23 (F := Ideal) x0 x1 j = ∑ j : Fin 2048, Cert.Spec.colMin x0 x1 j :=
    (Cert.HostMin.sum_idx1 _).trans (Finset.sum_congr rfl fun j _ => ref_colMin x0 x1 j)
  simp only [Read.val_main_v28_apply, Read.val_main_v26_apply, Read.val_main_v27_apply, Read.val_main_cst_10_apply,
    Read.val_main_cst_11_apply, Read.val_main_v22_apply, Read.val_main_v25_apply, Read.val_main_v21_apply, Read.val_main_v24_apply,
    Read.val_main_cst_5_apply, Read.val_main_cst_8_apply, Read.val_main_cst_6_apply, Read.val_main_cst_9_apply, hr, hc,
    Ideal.addf_def, Ideal.mulf_def, Ideal.hostDivf_def, Ideal.ofBits_def, Ideal.ofBits_zero_f32, zero_add]
  rfl

/-- Every weakly fair execution of the reference ends with its three float results at the specification's functions of
    the argument arrays as the run found them, the scalar sum of the three scalar arguments as the operations compose it,
    and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_arg0) = m' ((c.tc : Thread nD τ).loc main_arg0)
      ∧ r.2.mem ((c.tc : Thread nD τ).loc main_v33) = Cert.Spec.xnorm (m' ((c.tc : Thread nD τ).loc main_arg0))
      ∧ r.2.mem ((c.tc : Thread nD τ).loc main_v35) = Cert.Spec.xmap (m' ((c.tc : Thread nD τ).loc main_arg0)) (m' ((c.tc : Thread nD τ).loc main_arg1))
      ∧ r.2.mem ((c.tc : Thread nD τ).loc main_v2) = addf (F := Ideal) (addf (F := Ideal) (m' ((c.tc : Thread nD τ).loc main_arg2)) (mulf (F := Ideal) (constant (F := Ideal) S_ .f32 0x3F000000#32) (m' ((c.tc : Thread nD τ).loc main_arg3)))) (m' ((c.tc : Thread nD τ).loc main_arg4))
      ∧ r.2.mem ((c.tc : Thread nD τ).loc main_v28) = (fun _ => Cert.Spec.loss (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run (defs (F := Ideal)) _ _).mono (fun _ h c =>
    ⟨(h c).1,
      (h c).2.1.trans ((Read.val_main_v33_eq (F := Ideal) (m' ((c.tc : Thread nD τ).loc main_arg0))).trans (ref_xnorm _)),
      (h c).2.2.1.trans ((Read.val_main_v35_eq (F := Ideal) (m' ((c.tc : Thread nD τ).loc main_arg0)) (m' ((c.tc : Thread nD τ).loc main_arg1))).trans (ref_xmap _ _)),
      (h c).2.2.2.1,
      (h c).2.2.2.2.1.trans ((Read.val_main_v28_eq (F := Ideal) (m' ((c.tc : Thread nD τ).loc main_arg0)) (m' ((c.tc : Thread nD τ).loc main_arg1))).trans (ref_loss _ _)),
      (h c).2.2.2.2.2⟩)
    (Cert.ReferenceIdeal.Value.run (F := Ideal) m' ρ')

/-- The reference runs and leaves its five arguments unchanged: its run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

end Cert.ReferenceIdeal.RefValue

end
-- ==== Proof.R0Pieces.lean ====
/-
  Region 0: what each control case's stores leave in the two accumulators and, at the last grid point, in the two
  outputs, as the body's named values.

  The body keeps a one-element sum accumulator and a row of 2048 minimum accumulators. At the first grid point it
  stores the reset values (zero, and +∞ in every entry), reads them back, and stores the updates over them; at every
  later point it reads what the point before left and stores the updates; at the last point it reads both updated
  accumulators back once more and stores the first scaled into the first output and the scaled sum of the second's
  entries into the second output. Every store and every load goes through the whole buffer at zero offsets, so a
  load after a store reads that store's value and the last store into a buffer is what the buffer ends holding.
  All statements hold for any number format.
-/
import proofs.«145222_j55370718380495_1_alg».proof.Proof.KI.R0Frame
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr

variable {F : FTy → Type} [FloatOps F]

/-- The zero offset of a rank-2 rectangle, however the zeros are spelt. -/
theorem hz2 : (![0, 0] : Fin 2 → Nat) = fun _ => 0 := funext fun a => by match a with | ⟨0,_⟩ => rfl | ⟨1,_⟩ => rfl

/-! ## The first point: both accumulators are reset, read back, and updated -/

/-- The sum accumulator after the first point: the reset value, read back, plus the block's sum of row minima. -/
theorem sout0_A_0_eq (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i) (x0 : Vec F S512x256 .f32) (x1 : Vec F S2048x256 .f32) :
    sout0_A_0 c i arg1 harg1 arg2 harg2 arg3 harg3 arg4 harg4 arg5 harg5 arg6 harg6 hc0 hc1 x0 x1 = k0_pay7 x0 x1 k0_pay4 := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_cons_unit_zero (S := S1x1) hz2, View.readCov_unit_zero (S := S1x1) _ hz2]
  simp only [View.readAt_eq_ld, harg1.read_unread, harg2.read_unread, View.ld_unit_zero (S := S512x256) hz2, View.ld_unit_zero (S := S2048x256) hz2, View.ld_unit_zero (S := S1x1) hz2, View.ld_unit_zero (S := S1x2048) hz2]

/-- The minimum accumulator after the first point: the reset value, read back, against the block's column minima. -/
theorem sout0_A_1_eq (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : cond0_0 i) (hc1 : ¬cond0_1 i) (x0 : Vec F S512x256 .f32) (x1 : Vec F S2048x256 .f32) :
    sout0_A_1 c i arg1 harg1 arg2 harg2 arg3 harg3 arg4 harg4 arg5 harg5 arg6 harg6 hc0 hc1 x0 x1 = k0_pay1 (k0_pay8 x0 x1 k0_pay5) := by
  unfold sout0_A_1
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S1x2048) hz2, View.readCov_unit_zero (S := S1x2048) _ hz2]
  simp only [View.readAt_eq_ld, harg1.read_unread, harg2.read_unread, View.ld_unit_zero (S := S512x256) hz2, View.ld_unit_zero (S := S2048x256) hz2, View.ld_unit_zero (S := S1x1) hz2, View.ld_unit_zero (S := S1x2048) hz2]

/-! ## A middle point: both accumulators are updated from what the point before left -/

theorem sout0_B_0_eq (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i) (x0 : Vec F S512x256 .f32) (x1 : Vec F S2048x256 .f32) (xs0 : Vec F S1x1 .f32) (xs1 : Vec F S1x2048 .f32) :
    sout0_B_0 c i arg1 harg1 arg2 harg2 arg3 harg3 arg4 harg4 arg5 harg5 arg6 harg6 hc0 hc1 x0 x1 xs0 xs1 = k0_pay7 x0 x1 xs0 := by
  unfold sout0_B_0
  rw [View.read_writes_eq_canon _ _ _ (scover0_B_0 c i arg1 harg1 arg2 harg2 arg3 harg3 arg4 harg4 arg5 harg5 arg6 harg6 hc0 hc1 x0 x1 xs0 xs1)]
  unfold kernelRun0_B
  dsimp only
  sl_unfold_words
  rw [View.canon_unit_zero (S := S1x1) hz2]
  simp only [View.readAt_eq_ld, harg1.read_unread, harg2.read_unread, harg5.read_unread, harg6.read_unread, View.ld_unit_zero (S := S512x256) hz2, View.ld_unit_zero (S := S2048x256) hz2, View.ld_unit_zero (S := S1x1) hz2, View.ld_unit_zero (S := S1x2048) hz2]

theorem sout0_B_1_eq (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : ¬cond0_1 i) (x0 : Vec F S512x256 .f32) (x1 : Vec F S2048x256 .f32) (xs0 : Vec F S1x1 .f32) (xs1 : Vec F S1x2048 .f32) :
    sout0_B_1 c i arg1 harg1 arg2 harg2 arg3 harg3 arg4 harg4 arg5 harg5 arg6 harg6 hc0 hc1 x0 x1 xs0 xs1 = k0_pay1 (k0_pay8 x0 x1 xs1) := by
  unfold sout0_B_1
  rw [View.read_writes_eq_canon _ _ _ (scover0_B_1 c i arg1 harg1 arg2 harg2 arg3 harg3 arg4 harg4 arg5 harg5 arg6 harg6 hc0 hc1 x0 x1 xs0 xs1)]
  unfold kernelRun0_B
  dsimp only
  sl_unfold_words
  rw [View.canon_unit_zero (S := S1x2048) hz2]
  simp only [View.readAt_eq_ld, harg1.read_unread, harg2.read_unread, harg5.read_unread, harg6.read_unread, View.ld_unit_zero (S := S512x256) hz2, View.ld_unit_zero (S := S2048x256) hz2, View.ld_unit_zero (S := S1x1) hz2, View.ld_unit_zero (S := S1x2048) hz2]

/-! ## The last point: both accumulators are updated, read back, and the two means stored -/

theorem sout0_C_0_eq (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) :
    sout0_C_0 c i arg1 harg1 arg2 harg2 arg3 harg3 arg4 harg4 arg5 harg5 arg6 harg6 hc0 hc1 x0 x1 xs0 xs1 = k0_pay7 x0 x1 xs0 := by
  unfold sout0_C_0
  rw [View.read_writes_eq_canon _ _ _ (scover0_C_0 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x1) hz2]
  simp only [View.readAt_eq_ld, harg1.read_unread, harg2.read_unread, harg5.read_unread, harg6.read_unread, View.ld_unit_zero (S := S512x256) hz2, View.ld_unit_zero (S := S2048x256) hz2, View.ld_unit_zero (S := S1x1) hz2, View.ld_unit_zero (S := S1x2048) hz2]

theorem sout0_C_1_eq (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) :
    sout0_C_1 c i arg1 harg1 arg2 harg2 arg3 harg3 arg4 harg4 arg5 harg5 arg6 harg6 hc0 hc1 x0 x1 xs0 xs1 = k0_pay1 (k0_pay8 x0 x1 xs1) := by
  unfold sout0_C_1
  rw [View.read_writes_eq_canon _ _ _ (scover0_C_1 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x2048) hz2]
  simp only [View.readAt_eq_ld, harg1.read_unread, harg2.read_unread, harg5.read_unread, harg6.read_unread, View.ld_unit_zero (S := S512x256) hz2, View.ld_unit_zero (S := S2048x256) hz2, View.ld_unit_zero (S := S1x1) hz2, View.ld_unit_zero (S := S1x2048) hz2]

/-- The first output at the last point: the scaled sum accumulator, read back after its update. -/
theorem out0_C_2_eq (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) :
    out0_C_2 c i arg1 harg1 arg2 harg2 arg3 harg3 arg4 harg4 arg5 harg5 arg6 harg6 hc0 hc1 x0 x1 xs0 xs1 = k0_pay2 (k0_pay7 x0 x1 xs0) := by
  unfold out0_C_2
  rw [View.read_writes_eq_canon _ _ _ (cover0_C_2 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x1) hz2, View.readCov_unit_zero (S := S1x1) _ hz2]
  simp only [View.readAt_eq_ld, harg1.read_unread, harg2.read_unread, harg5.read_unread, harg6.read_unread, View.ld_unit_zero (S := S512x256) hz2, View.ld_unit_zero (S := S2048x256) hz2, View.ld_unit_zero (S := S1x1) hz2, View.ld_unit_zero (S := S1x2048) hz2]

/-- The second output at the last point: the scaled sum of the minimum accumulator, read back after its update. -/
theorem out0_C_3_eq (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (hc0 : ¬cond0_0 i) (hc1 : cond0_1 i) (x0 : Vec F S512x256 .f32) (x1 : Vec F S2048x256 .f32) (xs0 : Vec F S1x1 .f32) (xs1 : Vec F S1x2048 .f32) :
    out0_C_3 c i arg1 harg1 arg2 harg2 arg3 harg3 arg4 harg4 arg5 harg5 arg6 harg6 hc0 hc1 x0 x1 xs0 xs1 = k0_pay3 (k0_pay1 (k0_pay8 x0 x1 xs1)) := by
  unfold out0_C_3
  rw [View.read_writes_eq_canon _ _ _ (cover0_C_3 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x1) hz2, View.readCov_unit_zero (S := S1x2048) _ hz2]
  simp only [View.readAt_eq_ld, harg1.read_unread, harg2.read_unread, harg5.read_unread, harg6.read_unread, View.ld_unit_zero (S := S512x256) hz2, View.ld_unit_zero (S := S2048x256) hz2, View.ld_unit_zero (S := S1x1) hz2, View.ld_unit_zero (S := S1x2048) hz2]

end Cert.KernelIdeal.Val
end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«145222_j55370718380495_1_alg».proof.Proof.LibKeepdims
import proofs.«145222_j55370718380495_1_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.R0Pay.lean ====
/-
  The values the first kernel's body computes, as the specification's functions.

  Per grid point the body holds a block x0 of 512 rows and all 2048 rows x1. It forms the matrix of distances
  between the rows of x0 and the rows of x1: the squared lengths as row sums of squares, the inner products by one
  matrix product against the transposed x1, then sqrt (max (|x|² + |y|² − 2·<x, y>) 0) entry by entry. The first
  accumulator gains the sum over the block's rows of the row minima; the second becomes, entry by entry, the smaller
  of itself and the column minimum over the block's rows. At the last point the first output is the first
  accumulator times a constant word, the second the sum of the second accumulator's entries times a constant word.
-/
import proofs.«145222_j55370718380495_1_alg».proof.Proof.Gen.KernelIdeal.Skeleton
import proofs.«145222_j55370718380495_1_alg».proof.Proof.Spec
import proofs.«145222_j55370718380495_1_alg».proof.Proof.LibMinReduce
import proofs.«145222_j55370718380495_1_alg».proof.Proof.LibKeepdims
import proofs.«145222_j55370718380495_1_alg».proof.Proof.LibRowReduce
import proofs.«145222_j55370718380495_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx Idealize.SL.Sem

/-! ## Small readings at an index -/

/-- A square root, entry by entry. -/
theorem sqrt_at {s : Shape} {φ : FTy} (a : FVec Ideal s φ) (i : s.Idx) : sqrt a i = Ideal.sqrt (a i) := rfl

/-- The word of +∞ reads ⊤. -/
theorem ofBits_inf_f32 : Ideal.ofBits .f32 0x7F800000#32 = (⊤ : EReal) := by simp [Ideal.ofBits, Ideal.ieee]

/-- The squared lengths of the rows, kept as a column and spread over the columns: at (p, q) the squared length of row p. -/
theorem sqNorm_col {a b c : ℕ} (x : FVec Ideal ⟨2, ![a, b]⟩ .f32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩
        (multiReduction .add [1] ⟨1, ![a]⟩ (mulf x x) 0x00000000#32 hr hφ hacc) hc) hb (ix2 p q)
      = Cert.Spec.rowSq x p :=
  (Cert.RowReduce.keepdims_apply _ hc hb p q).trans (Cert.RowReduce.rowSum_apply (mulf x x) _ hr hφ hacc p)

/-- The squared lengths of the rows, laid out as one row and spread over the rows: at (p, q) the squared length of row q. -/
theorem sqNorm_row {a b c : ℕ} (x : FVec Ideal ⟨2, ![a, b]⟩ .f32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![1, a]⟩) (hb : (⟨2, ![1, a]⟩ : Shape).Broadcasts ⟨2, ![c, a]⟩)
    (p : Fin c) (q : Fin a) :
    broadcastTo ⟨2, ![c, a]⟩ (shapeCast ⟨2, ![1, a]⟩
        (multiReduction .add [1] ⟨1, ![a]⟩ (mulf x x) 0x00000000#32 hr hφ hacc) hc) hb (ix2 p q)
      = Cert.Spec.rowSq x q :=
  (broadcastTo_1b_ab_apply _ hb p q).trans
    ((shapeCast_a_1a_apply _ hc 0 q).trans (Cert.RowReduce.rowSum_apply (mulf x x) _ hr hφ hacc q))

theorem lhs0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem lhs1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem rhs0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem rhs1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- The product of the block against the transposed rows: at (p, q) the inner product of row p of x0 and row q of x1. -/
theorem gram_apply (x0 : FVec Ideal S512x256 .f32) (x1 : FVec Ideal S2048x256 .f32) (p : Fin 512) (q : Fin 2048) :
    matmul dot_S512x256_S256x2048_S512x2048_1_0_0_1_n_n none (truncf .bf16 x0 Facts₀.bitsLt_bf16_f32)
        (transpose S256x2048 [1, 0] (truncf .bf16 x1 Facts₀.bitsLt_bf16_f32) Facts₀.transposes_S2048x256_p1_0_S256x2048)
        (constant (F := Ideal) S512x2048 .f32 0x00000000#32) (ix2 p q)
      = Cert.Spec.rowDot x0 x1 p q := by
  refine (Cert.DenseLayer.matmul_rows_cols dot_S512x256_S256x2048_S512x2048_1_0_0_1_n_n rfl rfl lhs0 lhs1 rhs0 rhs1 none _ _ p q).trans ?_
  unfold Cert.Spec.rowDot
  refine Finset.sum_congr rfl fun k _ => ?_
  refine congrArg (x0 (ix2 p k) * ·) ?_
  exact transpose_ix2_apply (truncf .bf16 x1 Facts₀.bitsLt_bf16_f32) Facts₀.transposes_S2048x256_p1_0_S256x2048 k q

/-- The distance matrix at an entry. -/
theorem pay6_apply (x0 : Vec Ideal S512x256 .f32) (x1 : Vec Ideal S2048x256 .f32) (p : Fin 512) (q : Fin 2048) :
    Gen.k0_pay6 (F := Ideal) x0 x1 (ix2 p q) = Cert.Spec.dist x0 x1 p q := by
  unfold Gen.k0_pay6 Cert.Spec.dist
  simp only [sqrt_at, maximumf_apply, subf_apply, addf_apply, mulf_apply, broadcast_apply]
  refine congrArg Ideal.sqrt (congrArg (max · _) ?_)
  refine congrArg₂ (· - ·) (congrArg₂ (· + ·) ?_ ?_) (congrArg (_ * ·) ?_)
  · exact sqNorm_col x0 _ _ _ _ _ p q
  · exact sqNorm_row x1 _ _ _ _ _ p q
  · exact gram_apply x0 x1 p q

theorem pay6_eq (x0 : Vec Ideal S512x256 .f32) (x1 : Vec Ideal S2048x256 .f32) :
    Gen.k0_pay6 (F := Ideal) x0 x1 = fun i => Cert.Spec.dist x0 x1 (i 0) (i 1) := by
  funext i
  obtain ⟨p, q, rfl⟩ : ∃ (p : Fin 512) (q : Fin 2048), i = ix2 p q := ⟨i 0, i 1, eq_ix2 i⟩
  exact pay6_apply x0 x1 p q

/-! ## Reductions of a matrix read at a row or a column -/

/-- The minimum of row p: the fold of min, from the accumulator's value, over the row's entries. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (Cert.MinReduce.multiReduction_minimumf_single src acc h hφ hacc (ix1 p)).trans ?_
  refine congrArg (fun f => (Finset.univ : Finset (Fin b)).fold min (Ideal.ofBits φ acc) f) ?_
  funext c
  exact congrArg src (Cert.MinReduce.lift_cols h p c)

/-- The minimum of column c: the fold of min, from the accumulator's value, over the column's entries. -/
theorem colMin_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (c : Fin b) :
    multiReduction .minimumf [0] ⟨1, ![b]⟩ src acc h hφ hacc (ix1 c)
      = (Finset.univ : Finset (Fin a)).fold min (Ideal.ofBits φ acc) (fun p => src (ix2 p c)) := by
  refine (Cert.MinReduce.multiReduction_minimumf_single src acc h hφ hacc (ix1 c)).trans ?_
  refine congrArg (fun f => (Finset.univ : Finset (Fin a)).fold min (Ideal.ofBits φ acc) f) ?_
  funext p
  exact congrArg src (Cert.MinReduce.lift_rows h c p)

/-- The sum of column c: the sum of the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  exact Finset.sum_congr rfl fun p _ => congrArg src (Cert.MinReduce.lift_rows h c p)

/-- The fold of min from ⊤ over every index is the infimum over the index type. -/
theorem fold_min_top {n : ℕ} (f : Fin n → EReal) :
    (Finset.univ : Finset (Fin n)).fold min (⊤ : EReal) f = Finset.univ.inf f := rfl

/-- The row minima of the distance matrix. -/
theorem rowMin_pay6 (x0 : Vec Ideal S512x256 .f32) (x1 : Vec Ideal S2048x256 .f32)
    (h : S512x2048.Reduces [1] S512) (hφ : FKind.Formats .f32)
    (hacc : (0x7F800000#32 : BitVec 32) = FKind.minimumf.neutral .f32 hφ) (p : Fin 512) :
    multiReduction .minimumf [1] S512 (Gen.k0_pay6 (F := Ideal) x0 x1) 0x7F800000#32 h hφ hacc (ix1 p)
      = Cert.Spec.rowMin x0 x1 p := by
  refine (rowMin_apply (Gen.k0_pay6 (F := Ideal) x0 x1) _ h hφ hacc p).trans ?_
  rw [ofBits_inf_f32, pay6_eq]
  exact fold_min_top _

/-- The column minima of the distance matrix. -/
theorem colMin_pay6 (x0 : Vec Ideal S512x256 .f32) (x1 : Vec Ideal S2048x256 .f32)
    (h : S512x2048.Reduces [0] S2048) (hφ : FKind.Formats .f32)
    (hacc : (0x7F800000#32 : BitVec 32) = FKind.minimumf.neutral .f32 hφ) (c : Fin 2048) :
    multiReduction .minimumf [0] S2048 (Gen.k0_pay6 (F := Ideal) x0 x1) 0x7F800000#32 h hφ hacc (ix1 c)
      = Cert.Spec.colMin x0 x1 c := by
  refine (colMin_apply (Gen.k0_pay6 (F := Ideal) x0 x1) _ h hφ hacc c).trans ?_
  rw [ofBits_inf_f32, pay6_eq]
  exact fold_min_top _

/-! ## The two accumulators' updates -/

theorem pay7_eq (x0 : Vec Ideal S512x256 .f32) (x1 : Vec Ideal S2048x256 .f32) (s0 : Vec Ideal S1x1 .f32) :
    Gen.k0_pay7 (F := Ideal) x0 x1 s0 = fun _ => s0 (ix2 0 0) + ∑ q : Fin 512, Cert.Spec.rowMin x0 x1 q := by
  funext i
  obtain ⟨u, w, rfl⟩ : ∃ (u : Fin 1) (w : Fin 1), i = ix2 u w := ⟨i 0, i 1, eq_ix2 i⟩
  obtain rfl : u = 0 := Subsingleton.elim _ _
  obtain rfl : w = 0 := Subsingleton.elim _ _
  unfold Gen.k0_pay7
  simp only [shapeCast_self, addf_apply]
  refine congrArg (s0 (ix2 0 0) + ·) ?_
  refine (shapeCast_a_1a_apply _ _ 0 0).trans ?_
  refine (colSum_apply _ _ _ _ _ 0).trans ?_
  refine Finset.sum_congr rfl fun k _ => ?_
  refine (Cert.Keepdims.shapeCast_a_a1_apply _ _ k 0).trans ?_
  exact rowMin_pay6 x0 x1 _ _ _ k

theorem pay8_eq (x0 : Vec Ideal S512x256 .f32) (x1 : Vec Ideal S2048x256 .f32) (s1 : Vec Ideal S1x2048 .f32) :
    Gen.k0_pay8 (F := Ideal) x0 x1 s1 = fun i => min (s1 i) (Cert.Spec.colMin x0 x1 (i 1)) := by
  funext i
  obtain ⟨u, c, rfl⟩ : ∃ (u : Fin 1) (c : Fin 2048), i = ix2 u c := ⟨i 0, i 1, eq_ix2 i⟩
  unfold Gen.k0_pay8
  simp only [minimumf_apply]
  refine congrArg (min (s1 (ix2 u c)) ·) ?_
  refine (shapeCast_a_1a_apply _ _ u c).trans ?_
  exact colMin_pay6 x0 x1 _ _ _ c

/-! ## The stores of the first and the last grid point -/

theorem pay1_eq (v : FVec Ideal S1x2048 .f32) : Gen.k0_pay1 (F := Ideal) v = v := by
  unfold Gen.k0_pay1
  exact shapeCast_self v _

theorem pay4_eq : Gen.k0_pay4 (F := Ideal) = fun _ => (0 : EReal) := by
  unfold Gen.k0_pay4
  simp only [shapeCast_self]
  funext i
  exact Ideal.ofBits_zero_f32

theorem pay5_eq : Gen.k0_pay5 (F := Ideal) = fun _ => (⊤ : EReal) := by
  unfold Gen.k0_pay5
  simp only [shapeCast_self]
  funext i
  exact ofBits_inf_f32

theorem pay2_eq (s0 : Vec Ideal S1x1 .f32) :
    Gen.k0_pay2 (F := Ideal) s0 = fun _ => s0 (ix2 0 0) * Ideal.ofBits .f32 0x38000000#32 := by
  funext i
  obtain ⟨u, w, rfl⟩ : ∃ (u : Fin 1) (w : Fin 1), i = ix2 u w := ⟨i 0, i 1, eq_ix2 i⟩
  obtain rfl : u = 0 := Subsingleton.elim _ _
  obtain rfl : w = 0 := Subsingleton.elim _ _
  rfl

theorem pay3_eq (s1 : Vec Ideal S1x2048 .f32) :
    Gen.k0_pay3 (F := Ideal) s1 = fun _ => (∑ j : Fin 2048, s1 (ix2 0 j)) * Ideal.ofBits .f32 0x3A000000#32 := by
  funext i
  obtain ⟨u, w, rfl⟩ : ∃ (u : Fin 1) (w : Fin 1), i = ix2 u w := ⟨i 0, i 1, eq_ix2 i⟩
  unfold Gen.k0_pay3
  simp only [mulf_apply, broadcast_apply]
  refine congrArg (· * _) ?_
  refine (shapeCast_a_1a_apply _ _ u w).trans ?_
  obtain rfl : w = 0 := Subsingleton.elim _ _
  exact Cert.RowReduce.rowSum_apply s1 _ _ _ _ 0

end Cert.KernelIdeal.Val

end
-- ==== Proof.LibBlockedSum.lean ====
/-
  A sum over `N * R` consecutive indices taken block by block, and a running sum.

  Index `r` of `Fin (N * R)` is `R * t + p` for exactly one block `t : Fin N` and one position `p : Fin R` inside the
  block. So a sum over all of `Fin (N * R)`, in an additive commutative monoid, is the sum over the blocks of each
  block's sum. The two instances spell this out for 16384 = 32 · 512 and 16384 = 8 · 2048.

  A sequence that starts at the first term and adds the next term at every step is the sequence of partial sums.
-/
import Mathlib.Algebra.BigOperators.Fin
import Mathlib.Logic.Equiv.Fin.Basic

namespace Cert.BlockedSum

/-- Position `p` of block `t` is an index below `N * R`. -/
theorem block_lt {N R : ℕ} (t : Fin N) (p : Fin R) : R * t.val + p.val < N * R :=
  calc R * t.val + p.val < R * t.val + R := Nat.add_lt_add_left p.isLt _
    _ = R * (t.val + 1) := (Nat.mul_succ R t.val).symm
    _ ≤ R * N := Nat.mul_le_mul_left R t.isLt
    _ = N * R := Nat.mul_comm R N

/-- A sum over `Fin (N * R)` is the sum over the `N` blocks of the sums over the `R` positions of a block. -/
theorem sum_by_blocks {M : Type*} [AddCommMonoid M] {N R : ℕ} (H : Fin (N * R) → M) :
    ∑ r : Fin (N * R), H r = ∑ t : Fin N, ∑ p : Fin R, H ⟨R * t.val + p.val, block_lt t p⟩ := by
  rw [← Equiv.sum_comp finProdFinEquiv H, Fintype.sum_prod_type]
  refine Finset.sum_congr rfl fun t _ => Finset.sum_congr rfl fun p _ => congrArg H (Fin.ext ?_)
  show p.val + R * t.val = R * t.val + p.val
  exact Nat.add_comm _ _

/-- 16384 indices as 32 blocks of 512. -/
theorem sum_32x512 {M : Type*} [AddCommMonoid M] (H : Fin 16384 → M) :
    ∑ r : Fin 16384, H r = ∑ t : Fin 32, ∑ p : Fin 512, H ⟨512 * t.val + p.val, by omega⟩ :=
  sum_by_blocks (N := 32) (R := 512) H

/-- 16384 indices as 8 blocks of 2048. -/
theorem sum_8x2048 {M : Type*} [AddCommMonoid M] (H : Fin 16384 → M) :
    ∑ r : Fin 16384, H r = ∑ t : Fin 8, ∑ p : Fin 2048, H ⟨2048 * t.val + p.val, by omega⟩ :=
  sum_by_blocks (N := 8) (R := 2048) H

/-- A sequence with `acc 0 = b 0` and `acc (n + 1) = acc n + b (n + 1)` is the sequence of partial sums of `b`. -/
theorem running_sum {M : Type*} [AddCommMonoid M] (acc b : ℕ → M) (h0 : acc 0 = b 0)
    (hs : ∀ n, acc (n + 1) = acc n + b (n + 1)) (n : ℕ) : acc n = ∑ s ∈ Finset.range (n + 1), b s := by
  induction n with
  | zero => rw [h0, Finset.sum_range_one]
  | succ n ih =>
    rw [hs, ih]
    exact (Finset.sum_range_succ b (n + 1)).symm

end Cert.BlockedSum
-- ==== Proof.SpecLaws.lean ====
/-
  Laws of the specification: how its functions read on a block of consecutive rows, how the sum of the row minima
  and the column minima of the whole array are assembled from 64 blocks of 512 rows, what a running sum and a
  running minimum over 64 steps amount to, and the exact values of the constants of the two means.

  Everything here is arithmetic of the extended reals over finite index types: commutativity and associativity of
  `+` and of `min`, reindexing, and the values of a few float words.
-/
import proofs.«145222_j55370718380495_1_alg».proof.Proof.Spec
import proofs.«145222_j55370718380495_1_alg».proof.Proof.LibBlockedSum
import Idealize.ShloMosaic.PureOps.Ideal.Laws
import Mathlib.Order.Interval.Finset.Fin
import Mathlib.Data.Finset.Lattice.Prod

noncomputable section

namespace Cert.Spec

open Idealize.ShloMosaic Idealize.ShloMosaic.ValueIdx

/-- Block `t` of 512 rows ends inside the 32768 rows. -/
theorem blk_le (t : Fin 64) : 512 * t.val + 512 ≤ 32768 := by omega

/-- Block `t`: the 512 rows from row `512 * t` on. -/
abbrev blk (z : Mat 32768 256) (t : Fin 64) : Mat 512 256 := rowsAt z 512 (512 * t.val) (blk_le t)

/-- Row `q` of block `t` as a row of the whole array. -/
abbrev row (t : Fin 64) (q : Fin 512) : Fin 32768 := ⟨512 * t.val + q.val, by omega⟩

/-! ### 1. The functions of a row on a block of rows -/

theorem rowSq_rowsAt {A K : ℕ} (x : Mat A K) (A' off : ℕ) (h : off + A' ≤ A) (q : Fin A') :
    rowSq (rowsAt x A' off h) q = rowSq x ⟨off + q.val, by have := q.isLt; omega⟩ := rfl

theorem rowDot_rowsAt {A B K : ℕ} (x : Mat A K) (y : Mat B K) (A' off : ℕ) (h : off + A' ≤ A) (q : Fin A')
    (j : Fin B) :
    rowDot (rowsAt x A' off h) y q j = rowDot x y ⟨off + q.val, by have := q.isLt; omega⟩ j := rfl

theorem dist_rowsAt {A B K : ℕ} (x : Mat A K) (y : Mat B K) (A' off : ℕ) (h : off + A' ≤ A) (q : Fin A')
    (j : Fin B) :
    dist (rowsAt x A' off h) y q j = dist x y ⟨off + q.val, by have := q.isLt; omega⟩ j := by
  unfold dist
  rw [rowSq_rowsAt, rowDot_rowsAt]

theorem rowMin_rowsAt {A B K : ℕ} (x : Mat A K) (y : Mat B K) (A' off : ℕ) (h : off + A' ≤ A) (q : Fin A') :
    rowMin (rowsAt x A' off h) y q = rowMin x y ⟨off + q.val, by have := q.isLt; omega⟩ := by
  unfold rowMin
  exact congrArg Finset.univ.inf (funext fun j => dist_rowsAt x y A' off h q j)

/-! ### 2. Normalised rows and their inner products on a block of rows -/

theorem xnorm_rowsAt {A K : ℕ} (x : Mat A K) (A' off : ℕ) (h : off + A' ≤ A)
    (i : (⟨2, ![A', K]⟩ : Shape).Idx) :
    xnorm (rowsAt x A' off h) i = xnorm x (ix2 ⟨off + (i 0).val, by have : (i 0).val < A' := (i 0).isLt; omega⟩ (i 1)) := rfl

theorem xmap_rowsAt {A B K : ℕ} (x : Mat A K) (y : Mat B K) (A' off : ℕ) (h : off + A' ≤ A)
    (i : (⟨2, ![A', B]⟩ : Shape).Idx) :
    xmap (rowsAt x A' off h) y i = xmap x y (ix2 ⟨off + (i 0).val, by have : (i 0).val < A' := (i 0).isLt; omega⟩ (i 1)) := by
  unfold xmap rowDot
  refine Finset.sum_congr rfl fun k _ => ?_
  rw [xnorm_rowsAt]
  rfl

/-! ### 3. The sum of the row minima, block by block -/

theorem sum_rowMin_blocks (z : Mat 32768 256) (p : Mat 2048 256) :
    ∑ r : Fin 32768, rowMin z p r = ∑ t : Fin 64, ∑ q : Fin 512, rowMin (blk z t) p q := by
  refine (Cert.BlockedSum.sum_by_blocks (N := 64) (R := 512) (fun r : Fin 32768 => rowMin z p r)).trans ?_
  refine Finset.sum_congr rfl fun t _ => Finset.sum_congr rfl fun q _ => ?_
  exact (rowMin_rowsAt z p 512 (512 * t.val) (blk_le t) q).symm

/-! ### 4. A column minimum, block by block -/

/-- An infimum over `Fin (N * R)` is the infimum over the `N` blocks of the infima over the `R` positions of a
    block: index `R * t + q` is position `q` of block `t`. -/
theorem inf_by_blocks {N R : ℕ} (H : Fin (N * R) → EReal) :
    Finset.univ.inf H = Finset.univ.inf fun t : Fin N => Finset.univ.inf fun q : Fin R =>
      H ⟨R * t.val + q.val, Cert.BlockedSum.block_lt t q⟩ := by
  simp only [Finset.inf_univ_eq_iInf]
  rw [← (finProdFinEquiv (m := N) (n := R)).iInf_comp (g := H), iInf_prod]
  refine iInf_congr fun t => iInf_congr fun q => congrArg H (Fin.ext ?_)
  show q.val + R * t.val = R * t.val + q.val
  exact Nat.add_comm _ _

theorem colMin_blocks (z : Mat 32768 256) (p : Mat 2048 256) (j : Fin 2048) :
    colMin z p j = Finset.univ.inf fun t : Fin 64 => colMin (blk z t) p j := by
  unfold colMin
  refine (inf_by_blocks (N := 64) (R := 512) (fun r : Fin 32768 => dist z p r j)).trans ?_
  refine congrArg Finset.univ.inf (funext fun t => congrArg Finset.univ.inf (funext fun q => ?_))
  exact (dist_rowsAt z p 512 (512 * t.val) (blk_le t) q j).symm

/-! ### 5. Running sum and running minimum over 64 steps -/

theorem run_sum64 (a b : ℕ → EReal) (h0 : a 0 = b 0) (hs : ∀ n, n + 1 < 64 → a (n + 1) = a n + b (n + 1)) :
    a 63 = ∑ t : Fin 64, b t.val := by
  have key : ∀ n, n < 64 → a n = ∑ s ∈ Finset.range (n + 1), b s := by
    intro n
    induction n with
    | zero => intro _; rw [h0, Finset.sum_range_one]
    | succ n ih =>
      intro hn
      rw [hs n hn, ih (by omega)]
      exact (Finset.sum_range_succ b (n + 1)).symm
  rw [key 63 (by omega)]
  exact (Fin.sum_univ_eq_sum_range b 64).symm

theorem run_min64 (a g : ℕ → EReal) (h0 : a 0 = min ⊤ (g 0))
    (hs : ∀ n, n + 1 < 64 → a (n + 1) = min (a n) (g (n + 1))) :
    a 63 = Finset.univ.inf fun t : Fin 64 => g t.val := by
  have key : ∀ n, n < 64 → a n = (Finset.range (n + 1)).inf g := by
    intro n
    induction n with
    | zero =>
      intro _
      rw [h0, Finset.range_one, Finset.inf_singleton]
      exact top_inf_eq _
    | succ n ih =>
      intro hn
      rw [hs n hn, ih (by omega), Finset.range_add_one (n := n + 1), Finset.inf_insert]
      exact inf_comm _ _
  rw [key 63 (by omega)]
  show (Finset.range 64).inf g = _
  rw [← Nat.Iio_eq_range, ← Fin.map_valEmbedding_univ, Finset.inf_map]
  rfl

/-! ### 6. The constants -/

theorem top_word : Ideal.ofBits .f32 0x7F800000#32 = (⊤ : EReal) := by
  simp [Ideal.ofBits, Ideal.ieee]

theorem zero_word : Ideal.ofBits .f32 0x00000000#32 = (0 : EReal) := Ideal.ofBits_zero_f32

/-- The word `0x47000000` is `2 ^ 15 = 32768`. -/
theorem word_32768 : Ideal.ofBits .f32 0x47000000#32 = ((32768 : ℝ) : EReal) := by
  simp [Ideal.ofBits, Ideal.ieee, -EReal.coe_mul]; norm_num

/-- The word `0x38000000` is `2 ^ (-15) = 1 / 32768`. -/
theorem word_inv32768 : Ideal.ofBits .f32 0x38000000#32 = ((1 / 32768 : ℝ) : EReal) := by
  simp [Ideal.ofBits, Ideal.ieee, -EReal.coe_mul]; norm_num

/-- The word `0x45000000` is `2 ^ 11 = 2048`. -/
theorem word_2048 : Ideal.ofBits .f32 0x45000000#32 = ((2048 : ℝ) : EReal) := by
  simp [Ideal.ofBits, Ideal.ieee, -EReal.coe_mul]; norm_num

/-- The word `0x3A000000` is `2 ^ (-11) = 1 / 2048`. -/
theorem word_inv2048 : Ideal.ofBits .f32 0x3A000000#32 = ((1 / 2048 : ℝ) : EReal) := by
  simp [Ideal.ofBits, Ideal.ieee, -EReal.coe_mul]; norm_num

theorem mul_inv32768 (X : EReal) :
    X * Ideal.ofBits .f32 0x38000000#32 = Ideal.div X (Ideal.ofBits .f32 0x47000000#32) := by
  rw [word_32768, word_inv32768, Ideal.div_coe (by norm_num)]

theorem mul_inv2048 (X : EReal) :
    X * Ideal.ofBits .f32 0x3A000000#32 = Ideal.div X (Ideal.ofBits .f32 0x45000000#32) := by
  rw [word_2048, word_inv2048, Ideal.div_coe (by norm_num)]

/-! ### 7. The loss from the block sums and block minima -/

theorem loss_of_blocks (z : Mat 32768 256) (p : Mat 2048 256) (S0 : EReal) (S1 : Fin 2048 → EReal)
    (h0 : S0 = ∑ t : Fin 64, ∑ q : Fin 512, rowMin (blk z t) p q)
    (h1 : ∀ j, S1 j = Finset.univ.inf fun t : Fin 64 => colMin (blk z t) p j) :
    Ideal.ofBits .f32 0x3F000000#32 * (S0 * Ideal.ofBits .f32 0x38000000#32)
      + Ideal.ofBits .f32 0x3F000000#32 * ((∑ j : Fin 2048, S1 j) * Ideal.ofBits .f32 0x3A000000#32)
      = loss z p := by
  have e1 : (∑ j : Fin 2048, S1 j) = ∑ j : Fin 2048, colMin z p j :=
    Finset.sum_congr rfl fun j _ => (h1 j).trans (colMin_blocks z p j).symm
  rw [mul_inv32768, mul_inv2048, h0, ← sum_rowMin_blocks, e1]
  rfl

end Cert.Spec

end
-- ==== Proof.R0Value.lean ====
/-
  Region 0: the values its two one-element output arrays end holding, on the extended reals.

  The 32768 rows of the first argument are visited in 64 blocks of 512 rows; all 2048 rows of the second argument are
  held at every grid point. After the last point the first output is the sum over the blocks of the sums of the
  blocks' row minima of the distance, times a constant word; the second output is the sum over the columns of the
  minimum over the blocks of the blocks' column minima, times a constant word. The proof follows the accumulators
  through the 64 points: the first is a running sum started from zero, the second a running minimum started from
  +∞; the outputs are written once, at the last point, from the accumulators as that point leaves them, and that
  point's block is the whole one-element array.
-/
import proofs.«145222_j55370718380495_1_alg».proof.Proof.R0Pieces
import proofs.«145222_j55370718380495_1_alg».proof.Proof.R0Pay
import proofs.«145222_j55370718380495_1_alg».proof.Proof.SpecLaws
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr

variable (V : (c : Dev nD) → (b : Ref sig .tc) → Buf (Elt Ideal) ((c : Thread nD τ).loc b))

/-- The block of the first argument at point t is its 512 rows from row 512·t on: the window's block index is (t, 0)
    and its block shape [512, 256], so the block's entry (r, k) is the array's entry (512·t + r, k). -/
theorem iblk0_0_eq (c : Dev nD) (t : Fin cfg0.N) :
    Fr.iblk0 V c 0 t = Cert.Spec.rowsAt (V c main_arg0) 512 (512 * t.val) (by have := t.isLt; have : cfg0.N = 64 := Gen.N_0; omega) := by
  have hi : ∀ t : Fin grid0.N, win0_0.index t 0 = t.val ∧ win0_0.index t 1 = 0 := by decide +kernel
  funext j
  unfold Fr.iblk0 Cert.Spec.rowsAt
  rw [View.read_apply]
  show V c main_arg0 _ = V c main_arg0 _
  refine congrArg (V c main_arg0) ?_
  funext a
  apply Fin.ext
  match a with
  | ⟨0, _⟩ => show win0_0.index t 0 * 512 + 1 * (j 0).val = 512 * t.val + (j 0).val; rw [(hi t).1]; omega
  | ⟨1, _⟩ => show win0_0.index t 1 * 256 + 1 * (j 1).val = (j 1).val; rw [(hi t).2]; omega

/-- The block of the second argument at every point is the whole array: the window's block index is (0, 0) and its
    block shape the array's. -/
theorem iblk0_1_eq (c : Dev nD) (t : Fin cfg0.N) : Fr.iblk0 V c 1 t = V c main_arg1 := by
  have hi : ∀ t : Fin grid0.N, win0_1.index t 0 = 0 ∧ win0_1.index t 1 = 0 := by decide +kernel
  funext j
  unfold Fr.iblk0
  rw [View.read_apply]
  show V c main_arg1 _ = V c main_arg1 _
  refine congrArg (V c main_arg1) ?_
  funext a
  apply Fin.ext
  match a with
  | ⟨0, _⟩ => show win0_1.index t 0 * 2048 + 1 * (j 0).val = (j 0).val; rw [(hi t).1]; omega
  | ⟨1, _⟩ => show win0_1.index t 1 * 256 + 1 * (j 1).val = (j 1).val; rw [(hi t).2]; omega

/-! ## The accumulators from point to point, as the body's named values -/

/-- After the first point: the reset values, updated with the first block. -/
theorem accs_first (c : Dev nD) (t : Fin cfg0.N) (h0 : t.val = 0) :
    (Fr.outsAt0 V c t.val t.isLt).2.2.1 = k0_pay7 (F := Ideal) (Fr.iblk0 V c 0 t) (Fr.iblk0 V c 1 t) (k0_pay4 (F := Ideal))
    ∧ (Fr.outsAt0 V c t.val t.isLt).2.2.2 = k0_pay1 (k0_pay8 (F := Ideal) (Fr.iblk0 V c 0 t) (Fr.iblk0 V c 1 t) (k0_pay5 (F := Ideal))) := by
  have hc0 : cond0_0 (grid0.coords t) := Fr.cond0_0_of t h0
  have hc1 : ¬cond0_1 (grid0.coords t) := Fr.ncond0_1_of t (by omega)
  rw [Fr.outsAt0_A V c t h0 hc0 hc1]
  unfold Fr.stepA
  dsimp only
  exact ⟨sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Fr.iblk0 V c 0 t) (Fr.iblk0 V c 1 t), sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Fr.iblk0 V c 0 t) (Fr.iblk0 V c 1 t)⟩

/-- After a later point, the last one included: what the point before left, updated with this point's block. -/
theorem accs_next (c : Dev nD) (t : Fin cfg0.N) (h0 : t.val ≠ 0) :
    (Fr.outsAt0 V c t.val t.isLt).2.2.1
        = k0_pay7 (F := Ideal) (Fr.iblk0 V c 0 t) (Fr.iblk0 V c 1 t) (Fr.outsAt0 V c (t.val - 1) (Nat.lt_of_le_of_lt (Nat.sub_le _ _) t.isLt)).2.2.1
    ∧ (Fr.outsAt0 V c t.val t.isLt).2.2.2
        = k0_pay1 (k0_pay8 (F := Ideal) (Fr.iblk0 V c 0 t) (Fr.iblk0 V c 1 t) (Fr.outsAt0 V c (t.val - 1) (Nat.lt_of_le_of_lt (Nat.sub_le _ _) t.isLt)).2.2.2) := by
  have hc0 : ¬cond0_0 (grid0.coords t) := Fr.ncond0_0_of t h0
  by_cases h1 : t.val % 64 = 63
  · have hc1 : cond0_1 (grid0.coords t) := Fr.cond0_1_of t h1
    rw [Fr.outsAt0_C V c t h0 h1 hc0 hc1]
    unfold Fr.stepC
    dsimp only
    exact ⟨sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Fr.iblk0 V c 0 t) (Fr.iblk0 V c 1 t) (Fr.outsAt0 V c (t.val - 1) (Nat.lt_of_le_of_lt (Nat.sub_le _ _) t.isLt)).2.2.1 (Fr.outsAt0 V c (t.val - 1) (Nat.lt_of_le_of_lt (Nat.sub_le _ _) t.isLt)).2.2.2,
      sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Fr.iblk0 V c 0 t) (Fr.iblk0 V c 1 t) (Fr.outsAt0 V c (t.val - 1) (Nat.lt_of_le_of_lt (Nat.sub_le _ _) t.isLt)).2.2.1 (Fr.outsAt0 V c (t.val - 1) (Nat.lt_of_le_of_lt (Nat.sub_le _ _) t.isLt)).2.2.2⟩
  · have hc1 : ¬cond0_1 (grid0.coords t) := Fr.ncond0_1_of t h1
    rw [Fr.outsAt0_B V c t h0 h1 hc0 hc1]
    unfold Fr.stepB
    dsimp only
    exact ⟨sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Fr.iblk0 V c 0 t) (Fr.iblk0 V c 1 t) (Fr.outsAt0 V c (t.val - 1) (Nat.lt_of_le_of_lt (Nat.sub_le _ _) t.isLt)).2.2.1 (Fr.outsAt0 V c (t.val - 1) (Nat.lt_of_le_of_lt (Nat.sub_le _ _) t.isLt)).2.2.2,
      sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Fr.iblk0 V c 0 t) (Fr.iblk0 V c 1 t) (Fr.outsAt0 V c (t.val - 1) (Nat.lt_of_le_of_lt (Nat.sub_le _ _) t.isLt)).2.2.1 (Fr.outsAt0 V c (t.val - 1) (Nat.lt_of_le_of_lt (Nat.sub_le _ _) t.isLt)).2.2.2⟩

/-- At the last point the outputs are the scaled accumulators as that point leaves them. -/
theorem outs_last (c : Dev nD) (t : Fin cfg0.N) (h0 : t.val ≠ 0) (h1 : t.val % 64 = 63) :
    (Fr.outsAt0 V c t.val t.isLt).1 = k0_pay2 (F := Ideal) (Fr.outsAt0 V c t.val t.isLt).2.2.1
    ∧ (Fr.outsAt0 V c t.val t.isLt).2.1 = k0_pay3 (F := Ideal) (Fr.outsAt0 V c t.val t.isLt).2.2.2 := by
  have hc0 : ¬cond0_0 (grid0.coords t) := Fr.ncond0_0_of t h0
  have hc1 : cond0_1 (grid0.coords t) := Fr.cond0_1_of t h1
  rw [Fr.outsAt0_C V c t h0 h1 hc0 hc1]
  unfold Fr.stepC
  dsimp only
  rw [sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Fr.iblk0 V c 0 t) (Fr.iblk0 V c 1 t) (Fr.outsAt0 V c (t.val - 1) (Nat.lt_of_le_of_lt (Nat.sub_le _ _) t.isLt)).2.2.1 (Fr.outsAt0 V c (t.val - 1) (Nat.lt_of_le_of_lt (Nat.sub_le _ _) t.isLt)).2.2.2,
    sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Fr.iblk0 V c 0 t) (Fr.iblk0 V c 1 t) (Fr.outsAt0 V c (t.val - 1) (Nat.lt_of_le_of_lt (Nat.sub_le _ _) t.isLt)).2.2.1 (Fr.outsAt0 V c (t.val - 1) (Nat.lt_of_le_of_lt (Nat.sub_le _ _) t.isLt)).2.2.2]
  exact ⟨out0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Fr.iblk0 V c 0 t) (Fr.iblk0 V c 1 t) (Fr.outsAt0 V c (t.val - 1) (Nat.lt_of_le_of_lt (Nat.sub_le _ _) t.isLt)).2.2.1 (Fr.outsAt0 V c (t.val - 1) (Nat.lt_of_le_of_lt (Nat.sub_le _ _) t.isLt)).2.2.2,
    out0_C_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (Fr.iblk0 V c 0 t) (Fr.iblk0 V c 1 t) (Fr.outsAt0 V c (t.val - 1) (Nat.lt_of_le_of_lt (Nat.sub_le _ _) t.isLt)).2.2.1 (Fr.outsAt0 V c (t.val - 1) (Nat.lt_of_le_of_lt (Nat.sub_le _ _) t.isLt)).2.2.2⟩

/-! ## The body's updates as the specification's functions, at an entry -/

theorem pay7_at (x0 : Vec Ideal S512x256 .f32) (x1 : Vec Ideal S2048x256 .f32) (s0 : Vec Ideal S1x1 .f32) :
    k0_pay7 (F := Ideal) x0 x1 s0 (ix2 0 0) = s0 (ix2 0 0) + ∑ q : Fin 512, Cert.Spec.rowMin x0 x1 q :=
  congrFun (pay7_eq x0 x1 s0) (ix2 0 0)

theorem pay18_at (x0 : Vec Ideal S512x256 .f32) (x1 : Vec Ideal S2048x256 .f32) (s1 : Vec Ideal S1x2048 .f32) (j : Fin 2048) :
    k0_pay1 (F := Ideal) (k0_pay8 (F := Ideal) x0 x1 s1) (ix2 0 j) = min (s1 (ix2 0 j)) (Cert.Spec.colMin x0 x1 j) :=
  (congrFun (pay1_eq _) (ix2 0 j)).trans (congrFun (pay8_eq x0 x1 s1) (ix2 0 j))

/-- The block at point t, with t read as one of the 64 blocks. -/
theorem iblk0_0_blk (c : Dev nD) (t : Fin cfg0.N) (h : t.val < 64) :
    Fr.iblk0 V c 0 t = Cert.Spec.blk (V c main_arg0) ⟨t.val, h⟩ := iblk0_0_eq V c t

/-! ## The two accumulators as sequences over the points -/

/-- The sum accumulator's entry after point n (anything past the grid). -/
def acc0 (c : Dev nD) (n : ℕ) : EReal := if h : n < cfg0.N then (Fr.outsAt0 V c n h).2.2.1 (ix2 0 0) else 0
/-- Entry j of the minimum accumulator after point n (anything past the grid). -/
def acc1 (c : Dev nD) (j : Fin 2048) (n : ℕ) : EReal := if h : n < cfg0.N then (Fr.outsAt0 V c n h).2.2.2 (ix2 0 j) else 0
/-- Block n's sum of row minima. -/
def bsum (c : Dev nD) (n : ℕ) : EReal :=
  if h : n < 64 then ∑ q : Fin 512, Cert.Spec.rowMin (Cert.Spec.blk (V c main_arg0) ⟨n, h⟩) (V c main_arg1) q else 0
/-- Block n's minimum of column j. -/
def bmin (c : Dev nD) (j : Fin 2048) (n : ℕ) : EReal :=
  if h : n < 64 then Cert.Spec.colMin (Cert.Spec.blk (V c main_arg0) ⟨n, h⟩) (V c main_arg1) j else 0

theorem acc0_zero (c : Dev nD) : acc0 V c 0 = bsum V c 0 := by
  have hN : cfg0.N = 64 := Gen.N_0
  have h0 : (0 : ℕ) < cfg0.N := by omega
  unfold acc0 bsum
  rw [dif_pos h0, dif_pos (show (0 : ℕ) < 64 by omega)]
  refine (congrFun (accs_first V c ⟨0, h0⟩ rfl).1 (ix2 0 0)).trans ?_
  rw [iblk0_0_blk V c ⟨0, h0⟩ (show (0 : ℕ) < 64 by omega), iblk0_1_eq V c ⟨0, h0⟩]
  refine (pay7_at _ _ _).trans ?_
  rw [pay4_eq]
  exact zero_add _

theorem acc0_succ (c : Dev nD) (n : ℕ) (hn : n + 1 < 64) : acc0 V c (n + 1) = acc0 V c n + bsum V c (n + 1) := by
  have hN : cfg0.N = 64 := Gen.N_0
  have h1 : n + 1 < cfg0.N := by omega
  have h0 : n < cfg0.N := by omega
  unfold acc0 bsum
  rw [dif_pos h1, dif_pos h0, dif_pos hn]
  refine (congrFun (accs_next V c ⟨n + 1, h1⟩ (Nat.succ_ne_zero n)).1 (ix2 0 0)).trans ?_
  rw [iblk0_0_blk V c ⟨n + 1, h1⟩ hn, iblk0_1_eq V c ⟨n + 1, h1⟩]
  exact pay7_at _ _ _

theorem acc1_zero (c : Dev nD) (j : Fin 2048) : acc1 V c j 0 = min ⊤ (bmin V c j 0) := by
  have hN : cfg0.N = 64 := Gen.N_0
  have h0 : (0 : ℕ) < cfg0.N := by omega
  unfold acc1 bmin
  rw [dif_pos h0, dif_pos (show (0 : ℕ) < 64 by omega)]
  refine (congrFun (accs_first V c ⟨0, h0⟩ rfl).2 (ix2 0 j)).trans ?_
  rw [iblk0_0_blk V c ⟨0, h0⟩ (show (0 : ℕ) < 64 by omega), iblk0_1_eq V c ⟨0, h0⟩]
  refine (pay18_at _ _ _ j).trans ?_
  rw [pay5_eq]

theorem acc1_succ (c : Dev nD) (j : Fin 2048) (n : ℕ) (hn : n + 1 < 64) :
    acc1 V c j (n + 1) = min (acc1 V c j n) (bmin V c j (n + 1)) := by
  have hN : cfg0.N = 64 := Gen.N_0
  have h1 : n + 1 < cfg0.N := by omega
  have h0 : n < cfg0.N := by omega
  unfold acc1 bmin
  rw [dif_pos h1, dif_pos h0, dif_pos hn]
  refine (congrFun (accs_next V c ⟨n + 1, h1⟩ (Nat.succ_ne_zero n)).2 (ix2 0 j)).trans ?_
  rw [iblk0_0_blk V c ⟨n + 1, h1⟩ hn, iblk0_1_eq V c ⟨n + 1, h1⟩]
  exact pay18_at _ _ _ j

/-- After the last point the sum accumulator holds the sum over the blocks of their sums of row minima. -/
theorem acc0_at63 (c : Dev nD) (h : 63 < cfg0.N) :
    (Fr.outsAt0 V c 63 h).2.2.1 (ix2 0 0)
      = ∑ t : Fin 64, ∑ q : Fin 512, Cert.Spec.rowMin (Cert.Spec.blk (V c main_arg0) t) (V c main_arg1) q := by
  have e := Cert.Spec.run_sum64 (acc0 V c) (bsum V c) (acc0_zero V c) (acc0_succ V c)
  unfold acc0 at e
  rw [dif_pos h] at e
  refine e.trans (Finset.sum_congr rfl fun t _ => ?_)
  unfold bsum
  rw [dif_pos t.isLt]

/-- After the last point entry j of the minimum accumulator holds the minimum over the blocks of their minima of column j. -/
theorem acc1_at63 (c : Dev nD) (j : Fin 2048) (h : 63 < cfg0.N) :
    (Fr.outsAt0 V c 63 h).2.2.2 (ix2 0 j)
      = Finset.univ.inf fun t : Fin 64 => Cert.Spec.colMin (Cert.Spec.blk (V c main_arg0) t) (V c main_arg1) j := by
  have e := Cert.Spec.run_min64 (acc1 V c j) (bmin V c j) (acc1_zero V c j) (acc1_succ V c j)
  unfold acc1 at e
  rw [dif_pos h] at e
  refine e.trans (congrArg Finset.univ.inf (funext fun t => ?_))
  unfold bmin
  rw [dif_pos t.isLt]

/-! ## The outputs at the last point -/

theorem out2_at63 (c : Dev nD) (h : 63 < cfg0.N) :
    (Fr.outsAt0 V c 63 h).1 = fun _ => (∑ t : Fin 64, ∑ q : Fin 512, Cert.Spec.rowMin (Cert.Spec.blk (V c main_arg0) t) (V c main_arg1) q) * Ideal.ofBits .f32 0x38000000#32 := by
  refine (outs_last V c ⟨63, h⟩ (by show (63 : ℕ) ≠ 0; omega) (by show (63 : ℕ) % 64 = 63; rfl)).1.trans ?_
  refine (pay2_eq _).trans ?_
  funext _
  exact congrArg (· * _) (acc0_at63 V c h)

theorem out3_at63 (c : Dev nD) (h : 63 < cfg0.N) :
    (Fr.outsAt0 V c 63 h).2.1 = fun _ => (∑ j : Fin 2048, Finset.univ.inf fun t : Fin 64 => Cert.Spec.colMin (Cert.Spec.blk (V c main_arg0) t) (V c main_arg1) j) * Ideal.ofBits .f32 0x3A000000#32 := by
  refine (outs_last V c ⟨63, h⟩ (by show (63 : ℕ) ≠ 0; omega) (by show (63 : ℕ) % 64 = 63; rfl)).2.trans ?_
  refine (pay3_eq _).trans ?_
  funext _
  refine congrArg (· * Ideal.ofBits .f32 0x3A000000#32) ?_
  refine Finset.sum_congr rfl fun j _ => ?_
  exact acc1_at63 V c j h

/-! ## From the last point's block to the array: the block of a one-element array is the array -/

theorem blk63_2 : ∀ t : Fin grid0.N, t.val = 63 →
    (win0_2.index t 0 * win0_2.size 0 = 0 ∧ win0_2.xsize (grid0.coords t) 0 = 1)
    ∧ (win0_2.index t 1 * win0_2.size 1 = 0 ∧ win0_2.xsize (grid0.coords t) 1 = 1) := by decide +kernel
theorem blk63_3 : ∀ t : Fin grid0.N, t.val = 63 →
    (win0_3.index t 0 * win0_3.size 0 = 0 ∧ win0_3.xsize (grid0.coords t) 0 = 1)
    ∧ (win0_3.index t 1 * win0_3.size 1 = 0 ∧ win0_3.xsize (grid0.coords t) 1 = 1) := by decide +kernel

/-- The first output array ends holding the sum over the blocks of their sums of row minima, times the constant word:
    it is written back once, at the last point, whose block is the whole array. -/
theorem arr0_2_eq (c : Dev nD) :
    (Fr.dat0 V c).arrAt 2 cfg0.N = fun _ => (∑ t : Fin 64, ∑ q : Fin 512, Cert.Spec.rowMin (Cert.Spec.blk (V c main_arg0) t) (V c main_arg1) q) * Ideal.ofBits .f32 0x38000000#32 := by
  have hN : cfg0.N = 64 := Gen.N_0
  have h63 : 63 < cfg0.N := by omega
  refine (Fr.dat0 V c).arrAt_eq_of_cover 2 _ (fun t hf => ?_) (fun i => ?_)
  · have ht : t.val = 63 := by have := (Gen.flush0_2 t).mp hf; have := t.isLt; omega
    obtain ⟨n, hn⟩ := t
    obtain rfl : n = 63 := ht
    show (cfg0.win 2).cut (grid0.coords ⟨63, hn⟩) ((Fr.dat0 V c).after 2 ⟨63, hn⟩) = _
    rw [Fr.after0_2]
    show (cfg0.win 2).cut (grid0.coords ⟨63, hn⟩) (Fr.outsAt0 V c 63 hn).1 = _
    rw [out2_at63 V c hn]
    rfl
  ·
    refine ⟨⟨63, h63⟩, (Gen.flush0_2 _).mpr rfl, ?_⟩
    show i ∈ ((View.whole main_v3_0).slice (win0_2.rect ⟨63, h63⟩)).set
    rw [View.set_slice_whole, Rect.mem_set_unit]
    intro a
    have h0 : (i 0 : Nat) < 1 := (i 0).isLt
    have h1 : (i 1 : Nat) < 1 := (i 1).isLt
    have hb := blk63_2 ⟨63, h63⟩ rfl
    match a with
    | ⟨0, _⟩ =>
      show win0_2.index ⟨63, h63⟩ 0 * win0_2.size 0 ≤ (i 0 : Nat) ∧ (i 0 : Nat) < win0_2.index ⟨63, h63⟩ 0 * win0_2.size 0 + win0_2.xsize (grid0.coords ⟨63, h63⟩) 0
      rw [hb.1.1, hb.1.2]; omega
    | ⟨1, _⟩ =>
      show win0_2.index ⟨63, h63⟩ 1 * win0_2.size 1 ≤ (i 1 : Nat) ∧ (i 1 : Nat) < win0_2.index ⟨63, h63⟩ 1 * win0_2.size 1 + win0_2.xsize (grid0.coords ⟨63, h63⟩) 1
      rw [hb.2.1, hb.2.2]; omega

/-- The second output array ends holding the sum over the columns of the minimum over the blocks of their column
    minima, times the constant word. -/
theorem arr0_3_eq (c : Dev nD) :
    (Fr.dat0 V c).arrAt 3 cfg0.N = fun _ => (∑ j : Fin 2048, Finset.univ.inf fun t : Fin 64 => Cert.Spec.colMin (Cert.Spec.blk (V c main_arg0) t) (V c main_arg1) j) * Ideal.ofBits .f32 0x3A000000#32 := by
  have hN : cfg0.N = 64 := Gen.N_0
  have h63 : 63 < cfg0.N := by omega
  refine (Fr.dat0 V c).arrAt_eq_of_cover 3 _ (fun t hf => ?_) (fun i => ?_)
  · have ht : t.val = 63 := by have := (Gen.flush0_3 t).mp hf; have := t.isLt; omega
    obtain ⟨n, hn⟩ := t
    obtain rfl : n = 63 := ht
    show (cfg0.win 3).cut (grid0.coords ⟨63, hn⟩) ((Fr.dat0 V c).after 3 ⟨63, hn⟩) = _
    rw [Fr.after0_3]
    show (cfg0.win 3).cut (grid0.coords ⟨63, hn⟩) (Fr.outsAt0 V c 63 hn).2.1 = _
    rw [out3_at63 V c hn]
    rfl
  ·
    refine ⟨⟨63, h63⟩, (Gen.flush0_3 _).mpr rfl, ?_⟩
    show i ∈ ((View.whole main_v3_1).slice (win0_3.rect ⟨63, h63⟩)).set
    rw [View.set_slice_whole, Rect.mem_set_unit]
    intro a
    have h0 : (i 0 : Nat) < 1 := (i 0).isLt
    have h1 : (i 1 : Nat) < 1 := (i 1).isLt
    have hb := blk63_3 ⟨63, h63⟩ rfl
    match a with
    | ⟨0, _⟩ =>
      show win0_3.index ⟨63, h63⟩ 0 * win0_3.size 0 ≤ (i 0 : Nat) ∧ (i 0 : Nat) < win0_3.index ⟨63, h63⟩ 0 * win0_3.size 0 + win0_3.xsize (grid0.coords ⟨63, h63⟩) 0
      rw [hb.1.1, hb.1.2]; omega
    | ⟨1, _⟩ =>
      show win0_3.index ⟨63, h63⟩ 1 * win0_3.size 1 ≤ (i 1 : Nat) ∧ (i 1 : Nat) < win0_3.index ⟨63, h63⟩ 1 * win0_3.size 1 + win0_3.xsize (grid0.coords ⟨63, h63⟩) 1
      rw [hb.2.1, hb.2.2]; omega

end Cert.KernelIdeal.Val

end
-- ==== Proof.R1Pay.lean ====
/-
  What the second kernel stores, on the extended reals.

  For a block x of 512 rows of length 256 the first stored value is the block with each row divided by the larger of
  its length and the small constant: entry (p, q) is x(p,q) / max (sqrt (∑ k, x(p,k)²)) ε. The second stored value is
  the matrix of inner products of those normalised rows with the 2048 rows of y: the narrowing to a shorter float
  format is the identity on the extended reals, the transpose of y reads y(j,k) at (k,j), and the matrix product into
  a zero accumulator is the sum over the contracted axis.
-/
import proofs.«145222_j55370718380495_1_alg».proof.Proof.Gen.KernelIdeal.Skeleton
import proofs.«145222_j55370718380495_1_alg».proof.Proof.Spec
import proofs.«145222_j55370718380495_1_alg».proof.Proof.LibRowReduce
import proofs.«145222_j55370718380495_1_alg».proof.Proof.LibDenseLayer
import Idealize.ShloMosaic.Lib.ValueLayout

noncomputable section

namespace Cert.KernelIdeal.Val

open Idealize.ShloMosaic Idealize.ShloMosaic.ValueIdx Cert.KernelIdeal Cert.KernelIdeal.Gen

/-- The first stored value at entry (p, q): x(p,q) divided by the larger of the length of row p and the small constant. -/
theorem r1_pay1_at (x0 : FVec Ideal S512x256 .f32) (p : Fin 512) (q : Fin 256) :
    Gen.k1_pay1 (F := Ideal) x0 (ix2 p q)
      = Ideal.div (x0 (ix2 p q)) (max (Ideal.sqrt (Cert.Spec.rowSq x0 p)) (Ideal.ofBits .f32 0x2B8CBCCC#32)) := by
  unfold Gen.k1_pay1
  refine congrArg (Ideal.div (x0 (ix2 p q))) ?_
  refine (Cert.Keepdims.broadcastTo_a1_ab_apply _ broadcasts_S512x1_S512x256 p q).trans ?_
  refine congrArg (fun z => max (Ideal.sqrt z) (Ideal.ofBits .f32 0x2B8CBCCC#32)) ?_
  refine (Cert.Keepdims.shapeCast_a_a1_apply _ shapeCasts_S512_S512x1 p 0).trans ?_
  refine (Cert.RowReduce.rowSum_apply (mulf x0 x0) 0x00000000#32 reduces_S512x256_S512 (.inl rfl) rfl p).trans ?_
  rfl

/-- The first stored value: the block with each row divided by the larger of its length and the small constant. -/
theorem r1_pay1_eq (x0 : Vec Ideal S512x256 .f32) : Gen.k1_pay1 (F := Ideal) x0 = Cert.Spec.xnorm x0 := by
  funext j
  obtain ⟨p, q, rfl⟩ : ∃ (p : Fin 512) (q : Fin 256), j = ix2 p q := ⟨j 0, j 1, eq_ix2 j⟩
  exact r1_pay1_at x0 p q

/-! The matrix product's operand indices: at output index i and contraction position q the left operand is read at
    (i 0, q) and the right operand at (q, i 1). -/

theorem r1_dot_lhs_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem r1_dot_lhs_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem r1_dot_rhs_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem r1_dot_rhs_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- The second stored value at entry (p, j): the inner product of row p of the first stored value with row j of the
    second block. -/
theorem r1_pay2_at (x0 : FVec Ideal S512x256 .f32) (x1 : FVec Ideal S2048x256 .f32) (p : Fin 512) (j : Fin 2048) :
    Gen.k1_pay2 (F := Ideal) x0 x1 (ix2 p j) = ∑ k : Fin 256, Gen.k1_pay1 (F := Ideal) x0 (ix2 p k) * x1 (ix2 j k) := by
  unfold Gen.k1_pay2
  refine (Cert.DenseLayer.matmul_rows_cols dot_S512x256_S256x2048_S512x2048_1_0_0_1_n_n rfl rfl r1_dot_lhs_0 r1_dot_lhs_1 r1_dot_rhs_0 r1_dot_rhs_1 none _ _ p j).trans ?_
  refine Finset.sum_congr rfl fun k _ => ?_
  refine congrArg (fun z => Gen.k1_pay1 (F := Ideal) x0 (ix2 p k) * z) ?_
  exact transpose_ix2_apply _ transposes_S2048x256_p1_0_S256x2048 k j

/-- The second stored value: the inner products of the normalised rows with the rows of the second block. -/
theorem r1_pay2_eq (x0 : Vec Ideal S512x256 .f32) (x1 : Vec Ideal S2048x256 .f32) :
    Gen.k1_pay2 (F := Ideal) x0 x1 = Cert.Spec.xmap x0 x1 := by
  funext i
  obtain ⟨p, j, rfl⟩ : ∃ (p : Fin 512) (j : Fin 2048), i = ix2 p j := ⟨i 0, i 1, eq_ix2 i⟩
  refine (r1_pay2_at x0 x1 p j).trans ?_
  rw [r1_pay1_eq]
  rfl

end Cert.KernelIdeal.Val

end
-- ==== Proof.R1Value.lean ====
/-
  What the second kernel's two result arrays hold after its region, as the specification's functions of the two
  operand arrays as the region finds them.

  The grid has 64 points. At point t the first operand's window holds the 512 rows from row 512 t on, the second
  operand's window the whole array, and each result's window is written back to the rows 512 t … 512 t + 511 of its
  array. The body leaves in the first result's window the block's rows normalised, and in the second the inner products
  of those with the rows of the second operand; both are functions of a row alone, so block t of the result is the
  rows 512 t … of the whole array's result. Row r is covered by point r / 512, and every point writes back, so the
  arrays end at the normalised rows and at their inner products.
-/
import proofs.«145222_j55370718380495_1_alg».proof.Proof.KI.R1Frame
import proofs.«145222_j55370718380495_1_alg».proof.Proof.R1Pay
import proofs.«145222_j55370718380495_1_alg».proof.Proof.SpecLaws
import Idealize.ShloMosaic.Lib.Pipeline.Value

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

-- the core's buffer contents when the region is entered
variable (V : (c : Dev nD) → (b : Ref sig .tc) → Buf (Elt Ideal) ((c : Thread nD τ).loc b))

theorem r1_hz : (![0, 0] : Fin 2 → Nat) = fun _ => 0 := funext fun a => by fin_cases a <;> rfl

/-- The printed index maps, decided over the grid: at point t the first operand's window and both results' windows
    are at block (t, 0), the second operand's window at block (0, 0). -/
theorem r1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Block t of 512 rows ends inside the 32768 rows. -/
theorem r1_le (t : Fin cfg1.N) : 512 * t.val + 512 ≤ 32768 := by
  have : t.val < 64 := t.isLt
  omega

/-- The first operand's block at point t: the 512 rows from row 512 t on. -/
theorem iblk1_0_eq (c : Dev nD) (t : Fin cfg1.N) :
    (Fr.iblk1 V c 0 t : Vec Ideal S512x256 .f32) = Cert.Spec.rowsAt (V c main_arg0) 512 (512 * t.val) (r1_le t) := by
  obtain ⟨e0, e1, -⟩ := r1_idx_facts t
  funext y
  show V c main_arg0 (((cfg1.win 0).blk t).view.emb y) = V c main_arg0 (ix2 ⟨512 * t.val + (y 0).val, _⟩ (y 1))
  refine congrArg (V c main_arg0) (funext fun a => Fin.ext ?_)
  match a with
  | ⟨0, _⟩ => show win1_0.index t (0 : Fin 2) * 512 + 1 * (y 0).val = 512 * t.val + (y 0).val; omega
  | ⟨1, _⟩ => show win1_0.index t (1 : Fin 2) * 256 + 1 * (y 1).val = (y 1).val; omega

/-- The second operand's block at every point: the whole array. -/
theorem iblk1_1_eq (c : Dev nD) (t : Fin cfg1.N) :
    (Fr.iblk1 V c 1 t : Vec Ideal S2048x256 .f32) = V c main_arg1 := by
  obtain ⟨-, -, e0, e1, -⟩ := r1_idx_facts t
  funext y
  show V c main_arg1 (((cfg1.win 1).blk t).view.emb y) = V c main_arg1 y
  refine congrArg (V c main_arg1) (funext fun a => Fin.ext ?_)
  match a with
  | ⟨0, _⟩ => show win1_1.index t (0 : Fin 2) * 2048 + 1 * (y 0).val = (y 0).val; omega
  | ⟨1, _⟩ => show win1_1.index t (1 : Fin 2) * 256 + 1 * (y 1).val = (y 1).val; omega

/-! ## The first result: the rows normalised -/

/-- What point t writes back to the first result's array is block t of the normalised rows of the first operand. -/
theorem flushed1_2_eq (c : Dev nD) (t : Fin cfg1.N) :
    (Fr.dat1 V c).flushed 2 t = ((cfg1.win 2).blk t).view.read (Elt Ideal) (Cert.Spec.xnorm (V c main_arg0)) := by
  show (cfg1.win 2).cut (grid1.coords t) ((Fr.dat1 V c).after 2 t) = _
  rw [Fr.after1_2]
  unfold Fr.out1_2
  rw [View.canon_unit_zero r1_hz]
  simp only [View.ld_unit_zero (S := S512x256) r1_hz]
  rw [r1_pay1_eq, iblk1_0_eq]
  obtain ⟨-, -, -, -, e0, e1, -⟩ := r1_idx_facts t
  funext j
  show Cert.Spec.xnorm (Cert.Spec.rowsAt (V c main_arg0) 512 (512 * t.val) (r1_le t)) j
    = Cert.Spec.xnorm (V c main_arg0) (((cfg1.win 2).blk t).view.emb j)
  rw [Cert.Spec.xnorm_rowsAt]
  refine congrArg (Cert.Spec.xnorm (V c main_arg0)) (funext fun a => Fin.ext ?_)
  match a with
  | ⟨0, _⟩ => show 512 * t.val + (j 0).val = win1_2.index t (0 : Fin 2) * 512 + 1 * (j 0).val; omega
  | ⟨1, _⟩ => show (j 1).val = win1_2.index t (1 : Fin 2) * 256 + 1 * (j 1).val; omega

/-- An index of the first result's array is in point t's block iff each coordinate is in the block's range. -/
theorem mem_blk1_2 (t : Fin cfg1.N) (i : S32768x256.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v9_0).slice (win1_2.rect t)).set ↔ _
  rw [View.set_slice_whole, Rect.mem_set_unit]
  exact Iff.rfl

/-- Row r of the first result's array is in the block of point r / 512, which is written back. -/
theorem covered1_2 (i : S32768x256.Idx) :
    ∃ t : Fin cfg1.N, (cfg1.win 2).flush t = true ∧ i ∈ ((cfg1.win 2).blk t).view.set := by
  have hi0 : (i 0).val < 32768 := (i 0).isLt
  have hi1 : (i 1).val < 256 := (i 1).isLt
  obtain ⟨t, ht⟩ : ∃ t : Fin cfg1.N, t.val = (i 0).val / 512 :=
    ⟨⟨(i 0).val / 512, show (i 0).val / 512 < 64 by omega⟩, rfl⟩
  obtain ⟨-, -, -, -, e0, e1, -⟩ := r1_idx_facts t
  refine ⟨t, flush1_2 t, ?_⟩
  rw [mem_blk1_2]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 256 ≤ (i 1).val ∧ (i 1).val < win1_2.index t (1 : Fin 2) * 256 + 256; omega

/-- The first result's array after the region: the rows of the first operand, each divided by the larger of its
    length and the small constant. -/
theorem arr2_eq (c : Dev nD) : (Fr.dat1 V c).arrAt 2 cfg1.N = Cert.Spec.xnorm (V c main_arg0) :=
  (Fr.dat1 V c).arrAt_eq_of_cover 2 (Cert.Spec.xnorm (V c main_arg0)) (fun t _ => flushed1_2_eq V c t) covered1_2

/-! ## The second result: the inner products of the normalised rows with the rows of the second operand -/

/-- What point t writes back to the second result's array is block t of those inner products. -/
theorem flushed1_3_eq (c : Dev nD) (t : Fin cfg1.N) :
    (Fr.dat1 V c).flushed 3 t
      = ((cfg1.win 3).blk t).view.read (Elt Ideal) (Cert.Spec.xmap (V c main_arg0) (V c main_arg1)) := by
  show (cfg1.win 3).cut (grid1.coords t) ((Fr.dat1 V c).after 3 t) = _
  rw [Fr.after1_3]
  unfold Fr.out1_3
  rw [View.canon_unit_zero r1_hz]
  simp only [View.ld_unit_zero (S := S512x256) r1_hz, View.ld_unit_zero (S := S2048x256) r1_hz]
  rw [r1_pay2_eq, iblk1_0_eq, iblk1_1_eq]
  obtain ⟨-, -, -, -, -, -, e0, e1⟩ := r1_idx_facts t
  funext j
  show Cert.Spec.xmap (Cert.Spec.rowsAt (V c main_arg0) 512 (512 * t.val) (r1_le t)) (V c main_arg1) j
    = Cert.Spec.xmap (V c main_arg0) (V c main_arg1) (((cfg1.win 3).blk t).view.emb j)
  rw [Cert.Spec.xmap_rowsAt]
  refine congrArg (Cert.Spec.xmap (V c main_arg0) (V c main_arg1)) (funext fun a => Fin.ext ?_)
  match a with
  | ⟨0, _⟩ => show 512 * t.val + (j 0).val = win1_3.index t (0 : Fin 2) * 512 + 1 * (j 0).val; omega
  | ⟨1, _⟩ => show (j 1).val = win1_3.index t (1 : Fin 2) * 2048 + 1 * (j 1).val; omega

/-- An index of the second result's array is in point t's block iff each coordinate is in the block's range. -/
theorem mem_blk1_3 (t : Fin cfg1.N) (i : S32768x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v9_1).slice (win1_3.rect t)).set ↔ _
  rw [View.set_slice_whole, Rect.mem_set_unit]
  exact Iff.rfl

/-- Row r of the second result's array is in the block of point r / 512, which is written back. -/
theorem covered1_3 (i : S32768x2048.Idx) :
    ∃ t : Fin cfg1.N, (cfg1.win 3).flush t = true ∧ i ∈ ((cfg1.win 3).blk t).view.set := by
  have hi0 : (i 0).val < 32768 := (i 0).isLt
  have hi1 : (i 1).val < 2048 := (i 1).isLt
  obtain ⟨t, ht⟩ : ∃ t : Fin cfg1.N, t.val = (i 0).val / 512 :=
    ⟨⟨(i 0).val / 512, show (i 0).val / 512 < 64 by omega⟩, rfl⟩
  obtain ⟨-, -, -, -, -, -, e0, e1⟩ := r1_idx_facts t
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- The second result's array after the region: the inner products of the normalised rows of the first operand with
    the rows of the second. -/
theorem arr3_eq (c : Dev nD) :
    (Fr.dat1 V c).arrAt 3 cfg1.N = Cert.Spec.xmap (V c main_arg0) (V c main_arg1) :=
  (Fr.dat1 V c).arrAt_eq_of_cover 3 (Cert.Spec.xmap (V c main_arg0) (V c main_arg1)) (fun t _ => flushed1_3_eq V c t) covered1_3

end Cert.KernelIdeal.Val

end
-- ==== Proof.KIValue.lean ====
/-
  What the idealized kernel program leaves in its result buffers, on the extended reals.

  The program is a stretch of scalar host operations, a first kernel region, a second stretch of host operations
  and a second kernel region. Reading the fold of buffer contents through these four segments at each result:
  the first scalar result is the host's sum-and-product of three scalar arguments; the two array results are what the
  second region writes, the normalised rows of the first argument and their inner products with the rows of the second;
  the last scalar result is the second host stretch's half-sum of the two numbers the first region writes, which is
  the loss of the specification: the sum of the row minima and the sum of the column minima, each assembled from 64
  blocks of 512 rows and multiplied by the reciprocal of its count, are the two means.
-/
import proofs.«145222_j55370718380495_1_alg».proof.Proof.KI.Run
import proofs.«145222_j55370718380495_1_alg».proof.Proof.R0Value
import proofs.«145222_j55370718380495_1_alg».proof.Proof.R1Value
import proofs.«145222_j55370718380495_1_alg».proof.Proof.SpecLaws
import Idealize.ShloMosaic.Lib.StableHlo.Run
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg)

/-- The scalar the first stretch of host operations computes: the first scalar argument plus half the second, plus
    the third. -/
theorem W1_main_v2 (c : Dev nD) :
    Fr.W1 m ρ c (Proc.devRef .tc main_v2)
      = addf (F := Ideal) (addf (F := Ideal) (m ((c.tc : Thread nD τ).loc main_arg2)) (mulf (F := Ideal) (constant (F := Ideal) S_ .f32 0x3F000000#32) (m ((c.tc : Thread nD τ).loc main_arg3)))) (m ((c.tc : Thread nD τ).loc main_arg4)) := by
  show StableHlo.after hostOps0 (Fr.W0 m ρ c) (Proc.devRef .tc main_v2) = _
  after_results

/-- The scalar the second stretch of host operations computes: half the first region's first number plus half its
    second number, each read as a scalar. -/
theorem W3_main_v8 (c : Dev nD) :
    Fr.W3 m ρ c (Proc.devRef .tc main_v8)
      = addf (F := Ideal)
          (mulf (F := Ideal) (constant (F := Ideal) S_ .f32 0x3F000000#32) (shapeCast S_ (Fr.W2 m ρ c (Proc.devRef .tc main_v3_0)) shapeCasts_S1x1_S_))
          (mulf (F := Ideal) (constant (F := Ideal) S_ .f32 0x3F000000#32) (shapeCast S_ (Fr.W2 m ρ c (Proc.devRef .tc main_v3_1)) shapeCasts_S1x1_S_)) := by
  show StableHlo.after hostOps1 (Fr.W2 m ρ c) (Proc.devRef .tc main_v8) = _
  after_results
  rfl

/-- The last scalar result is the loss of the two argument arrays. -/
theorem W4_main_v8_eq (c : Dev nD) :
    Fr.W4 m ρ c (Proc.devRef .tc main_v8)
      = fun _ => Cert.Spec.loss (m ((c.tc : Thread nD τ).loc main_arg0)) (m ((c.tc : Thread nD τ).loc main_arg1)) := by
  refine (Fr.W4_main_v8 m ρ c).trans ((W3_main_v8 m ρ c).trans ?_)
  rw [Fr.W2_v3_0, Fr.W2_v3_1, arr0_2_eq, arr0_3_eq, Fr.V1_main_arg0, Fr.V1_main_arg1]
  funext i
  exact Cert.Spec.loss_of_blocks _ _ _ _ rfl (fun j => rfl)

/-- The first array result: the normalised rows of the first argument. -/
theorem W4_main_v9_0_eq (c : Dev nD) :
    Fr.W4 m ρ c (Proc.devRef .tc main_v9_0) = Cert.Spec.xnorm (m ((c.tc : Thread nD τ).loc main_arg0)) := by
  rw [Fr.W4_v9_0, arr2_eq, Fr.V3_main_arg0]

/-- The second array result: the inner products of the normalised rows with the rows of the second argument. -/
theorem W4_main_v9_1_eq (c : Dev nD) :
    Fr.W4 m ρ c (Proc.devRef .tc main_v9_1) = Cert.Spec.xmap (m ((c.tc : Thread nD τ).loc main_arg0)) (m ((c.tc : Thread nD τ).loc main_arg1)) := by
  rw [Fr.W4_v9_1, arr3_eq, Fr.V3_main_arg0, Fr.V3_main_arg1]

/-- THE RUN with its values: every weakly fair execution of the program on the cores terminates, nothing faulting,
    and every final state has the five results at the specification's functions of the arguments and the five
    arguments as launched. -/
theorem kernel_run :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v9_0) = Cert.Spec.xnorm (m ((c.tc : Thread nD τ).loc main_arg0))
      ∧ r.2.mem ((c.tc : Thread nD τ).loc main_v9_1) = Cert.Spec.xmap (m ((c.tc : Thread nD τ).loc main_arg0)) (m ((c.tc : Thread nD τ).loc main_arg1))
      ∧ r.2.mem ((c.tc : Thread nD τ).loc main_v2) = addf (F := Ideal) (addf (F := Ideal) (m ((c.tc : Thread nD τ).loc main_arg2)) (mulf (F := Ideal) (constant (F := Ideal) S_ .f32 0x3F000000#32) (m ((c.tc : Thread nD τ).loc main_arg3)))) (m ((c.tc : Thread nD τ).loc main_arg4))
      ∧ r.2.mem ((c.tc : Thread nD τ).loc main_v8) = (fun _ => Cert.Spec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (Fr.mem_uc main_arg0 (by decide))).trans (Fr.W4_main_arg0 m ρ c),
      (h c _ (Fr.mem_uc main_v9_0 (by decide))).trans (W4_main_v9_0_eq m ρ c),
      (h c _ (Fr.mem_uc main_v9_1 (by decide))).trans (W4_main_v9_1_eq m ρ c),
      (h c _ (Fr.mem_uc main_v2 (by decide))).trans ((Fr.W4_main_v2 m ρ c).trans (W1_main_v2 m ρ c)),
      (h c _ (Fr.mem_uc main_v8 (by decide))).trans (W4_main_v8_eq m ρ c),
      (h c _ (Fr.mem_uc main_arg0 (by decide))).trans (Fr.W4_main_arg0 m ρ c),
      (h c _ (Fr.mem_uc main_arg1 (by decide))).trans (Fr.W4_main_arg1 m ρ c),
      (h c _ (Fr.mem_uc main_arg2 (by decide))).trans (Fr.W4_main_arg2 m ρ c),
      (h c _ (Fr.mem_uc main_arg3 (by decide))).trans (Fr.W4_main_arg3 m ρ c),
      (h c _ (Fr.mem_uc main_arg4 (by decide))).trans (Fr.W4_main_arg4 m ρ c)⟩) (Fr.run_all m ρ)

end Cert.KernelIdeal.Val

end
-- ==== Proof.Algebraic.lean ====
/-
  The idealized kernel program and the idealized reference, started from memories that agree on the five arguments,
  both run and end with equal results and unchanged arguments: each result of either program is the same function of
  the arguments on the extended reals — the first argument itself, its normalised rows, their inner products with the
  rows of the second argument, the host's sum-and-product of the three scalars, and the loss.
-/
import proofs.«145222_j55370718380495_1_alg».proof.Defs
import proofs.«145222_j55370718380495_1_alg».proof.Proof.KIValue
import proofs.«145222_j55370718380495_1_alg».proof.Proof.RefValue
import proofs.«145222_j55370718380495_1_alg».proof.Proof.Gen.KernelIdeal
import proofs.«145222_j55370718380495_1_alg».proof.Proof.Gen.ReferenceIdeal
import proofs.«145222_j55370718380495_1_alg».proof.Proof.Gen.Pre_finite_inputs

noncomputable section

namespace Cert.Proof.Alg

open Idealize.ShloMosaic Idealize.ShloMosaic.TcCoe Idealize.SL.Sem

/-- At the ideal instance the kernel program's results are the specification's functions of its arguments, and so
    are the reference's of its own; the arguments agree, so the results are equal. -/
theorem algebraic : Cert.algebraic_KernelIdeal_ReferenceIdeal := by
  intro m ρ m' ρ' _ hagree
  refine ⟨_, _, _, _, _, Cert.KernelIdeal.Val.kernel_run m ρ, ?_⟩
  refine (θ_run Cert.ReferenceIdeal.defs _ _).mono (fun r h c => ?_) (Cert.ReferenceIdeal.RefValue.ref_run m' ρ')
  obtain ⟨h0, h1, h2, h3, h4, h5⟩ := h c
  obtain ⟨a0, a1, a2, a3, a4⟩ := hagree c
  refine ⟨h0.trans a0, h1.trans ?_, h2.trans ?_, h3.trans ?_, h4.trans ?_, h5⟩
  · rw [a0]
  · rw [a0, a1]
  · rw [a2, a3, a4]
  · rw [a0, a1]
    rfl

end Cert.Proof.Alg

end
-- ==== Proof.lean ====
/-
  The certificate's claim: the three frames, the (empty) idealization ledger, and the equality of the two idealized
  programs' results on the extended reals.

  The kernel program runs two pipelined regions among host operations. The first computes, over 64 blocks of 512
  rows, the distances of every row of the encoder output to every prototype row, keeps the running sum of the row
  minima and the running column minima in two accumulators, and at the last block writes the two means; the second
  normalises every row and multiplies by the transposed prototypes. Each frame is the run of the program's four items
  (host operations, region, host operations, region) with every unscoped buffer's contents named at each boundary;
  the arguments are written by no item. The value claim reads the results off the last boundary: the two scalar
  results through the host operations, the two arrays block by block, and compares them with the reference's run,
  both being the same functions of the arguments (sums and minima regrouped by blocks; a product with 2⁻¹⁵ or 2⁻¹¹
  against a quotient by 32768 or 2048).
-/
import proofs.«145222_j55370718380495_1_alg».proof.Defs
import proofs.«145222_j55370718380495_1_alg».proof.Proof.Gen.Kernel
import proofs.«145222_j55370718380495_1_alg».proof.Proof.Gen.KernelIdeal
import proofs.«145222_j55370718380495_1_alg».proof.Proof.Gen.ReferenceIdeal
import proofs.«145222_j55370718380495_1_alg».proof.Proof.Gen.Pre_finite_inputs
import proofs.«145222_j55370718380495_1_alg».proof.Proof.K.Run
import proofs.«145222_j55370718380495_1_alg».proof.Proof.KI.Run
import proofs.«145222_j55370718380495_1_alg».proof.Proof.RefValue
import proofs.«145222_j55370718380495_1_alg».proof.Proof.Algebraic

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, Cert.Proof.Alg.algebraic⟩

end Cert.Proof

end
